-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩
abbrev S512x1024 : Shape := ⟨2, ![512, 1024]⟩
abbrev S512x1 : Shape := ⟨2, ![512, 1]⟩
abbrev S512 : Shape := ⟨1, ![512]⟩

abbrev nBuf : Space → Nat
  | .hbm => 10
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S1024x1024, .bf16⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .f32⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1, .f32⟩
  | .local _ .vmem, ⟨19, _⟩ => ⟨S512x1, .f32⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1024x1024_S1024x1024_S1024x2048_d1 : Shape.Concatenates [S1024x1024, S1024x1024] S1024x2048 1
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S256x2048_o0_0_S256x1024 : S256x2048.Slices ![0, 0] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S256x1024_S256x1024_0_0 : (Rect.unit (s := S256x1024) ![0, 0] S256x1024.size inb_S256x1024_S256x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .bf16 = 32 ∨ (Rect.block (s := S8192x1024) S256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .f32 = 32 ∨ (Rect.block (s := S8192x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x8192, .f32⟩
  | .hbm, ⟨8, _⟩ => ⟨S8192x8192, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KB.Runs.lean ====
/-
  The attention region's body, case by case: what is shared by its three runs.

  The grid of the second pallas_call is 16 query tiles by 8 key tiles, the key axis innermost. The body branches
  twice on the key coordinate: at the first key tile it resets the three scratch buffers (running maximum, running
  denominator, running numerator), at the last it divides and stores the output tile. So a point is in one of three
  cases: first (reset, no output), middle (neither), last (output stored). Here: the two conditions in closed form
  over the 128 points, where the output window is idle, and the names the runs are stated over.
-/
import proofs.«171233_j76312978915618_2_alg».proof.Proof.Gen.Kernel.Launch
import proofs.«171233_j76312978915618_2_alg».proof.Proof.Gen.Kernel.Skeleton
import proofs.«171233_j76312978915618_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The body's first test: the key coordinate is 0. -/
abbrev cond1_0 (i : grid1.Coords) : Prop := (Scalar.cmpi .ne (Scalar.extui (Scalar.cmpi .eq (BitVec.ofNat 32 (i 1).val) 0#32)) 0#32) = 1#1
/-- It holds exactly at the first key tile of each query tile. -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second test: the key coordinate is 7. -/
abbrev cond1_1 (i : grid1.Coords) : Prop := k1_cond2 i = 1#1
/-- It holds exactly at the last key tile of each query tile. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the body stores nothing into the output tile, -/
theorem idleAt1_3 : ∀ t : Fin cfg1.N, ¬cond1_1 (grid1.coords t) → cfg1.idle 3 (grid1.coords t) = true := by decide +kernel
/-- and the pipeline does not write it back there. -/
theorem noFlush1_3 : ∀ t : Fin cfg1.N, ¬cond1_1 (grid1.coords t) → (cfg1.win 3).flush t = false := by decide +kernel
/-- At the last key tile the output tile is stored. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The three scratch buffers: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view
/-- One staging buffer of the output window, through which its contents are stated. -/
abbrev VO1_3 : View sig .tc .vmem S512x1024 .f32 := (Memref.whole cc1_stg3_0 : Memref sig .tc .vmem S512x1024 .f32).view

/-- The scoped buffers of the core that are neither this region's staging buffers nor its scratch (the first region's
    staging buffers), each whole at some contents: they ride along untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The region's scoped rest, opened: the other region's staging buffers, the three scratch buffers at some
    contents, and the generator register. -/
theorem PhiA1_open (c : Dev nD) :
    (Pipeline.ΦA spec1 c : sProp 𝕄)
      ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA rest1; rw [scopedRest1_eq]; simp only [scM1_0, scM1_1, scM1_2, owns_whole]
  iintro ⟨⟨H0, H1, H2, H3, H4, H5, H6, H7, H8, H9, HS0, HS1, HS2⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS0]; · iexact HS0
  isplitl [HS1]; · iexact HS1
  isplitl [HS2]; · iexact HS2
  iexact Hg

/-- And closed again. -/
theorem PhiA1_close (c : Dev nD) :
    iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  unfold Pipeline.ΦA rest1; rw [scopedRest1_eq]; simp only [scM1_0, scM1_1, scM1_2, owns_whole]
  iintro ⟨⟨H0, H1, H2, H3, H4, H5, H6, H7, H8, H9⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iexact Hg

end Cert.Kernel.Hand

end
-- ==== Proof.KB.Region0.lean ====
/-
  The projection region (the first pallas_call), at the contents V the region finds: each of its 32 points reads a
  tile of 256 rows of x and the two whole weights, and stores three tiles of 256 rows: the left and the right half of
  x·[wq|wk], and x·wv. The body's triple, the proof data and the body obligation, in the shape of a body that loads,
  computes and stores through whole-tile rectangles.
-/
import proofs.«171233_j76312978915618_2_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: whole tiles -/

abbrev r0_x : Rect S256x1024 := Rect.unit (s := S256x1024) ![0, 0] S256x1024.size inb_S256x1024_S256x1024_0_0
abbrev r0_wqk : Rect S1024x2048 := Rect.unit (s := S1024x2048) ![0, 0] S1024x2048.size inb_S1024x2048_S1024x2048_0_0
abbrev r0_wv : Rect S1024x1024 := Rect.unit (s := S1024x1024) ![0, 0] S1024x1024.size inb_S1024x1024_S1024x1024_0_0

/-- The query tile the body leaves: the left half of the tile of x times [wq|wk]. -/
def out0_3 (x0 : Vec F S256x1024 .f32) (x1 : Vec F S1024x2048 .f32) : Vec F S256x1024 .f32 :=
  View.canon [⟨r0_x, k0_pay2 (View.ld x0 r0_x) (View.ld x1 r0_wqk)⟩]
/-- The key tile: the right half. -/
def out0_4 (x0 : Vec F S256x1024 .f32) (x1 : Vec F S1024x2048 .f32) : Vec F S256x1024 .f32 :=
  View.canon [⟨r0_x, k0_pay3 (View.ld x0 r0_x) (View.ld x1 r0_wqk)⟩]
/-- The value tile: the tile of x times wv. -/
def out0_5 (x0 : Vec F S256x1024 .f32) (x2 : Vec F S1024x1024 .bf16) : Vec F S256x1024 .bf16 :=
  View.canon [⟨r0_x, k0_pay4 (View.ld x0 r0_x) (View.ld x2 r0_wv)⟩]

theorem cover0_f32 (p0 : Vec F S256x1024 .f32) (y : S256x1024.Idx) :
    ∃ pc ∈ ([⟨r0_x, p0⟩] : List (View.Piece (Elt F) S256x1024 .f32)), y ∈ pc.1.set :=
  View.cover_of_tiled [⟨r0_x, p0⟩] S256x1024.size (by rfl) y
theorem cover0_bf16 (p0 : Vec F S256x1024 .bf16) (y : S256x1024.Idx) :
    ∃ pc ∈ ([⟨r0_x, p0⟩] : List (View.Piece (Elt F) S256x1024 .bf16)), y ∈ pc.1.set :=
  View.cover_of_tiled [⟨r0_x, p0⟩] S256x1024.size (by rfl) y

set_option maxHeartbeats 4000000 in
theorem sound_kernel0 (c : Dev nD) (E : Set ℕ) (i : grid0.Coords) (arg1 : Memref sig .tc .vmem S256x1024 .f32) (harg1 : arg1.IsWhole) (arg2 : Memref sig .tc .vmem S1024x2048 .f32) (harg2 : arg2.IsWhole) (arg3 : Memref sig .tc .vmem S1024x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole)
    (x0 : Vec F S256x1024 .f32) (x1 : Vec F S1024x2048 .f32) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1) ∗ owns (c : Thread nD τ) arg6 fullShare (out0_5 x0 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_f32 _)
  isplitl [H4]
  · iexists _; isplitr
    swap; · iexact H4
    ipureintro
    exact View.read_writes_eq_canon _ _ _ (cover0_f32 _)
  iexists _; isplitr
  swap; · iexact H5
  ipureintro
  exact View.read_writes_eq_canon _ _ _ (cover0_bf16 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Run1A.lean ====
/-
  The attention body at a FIRST key tile: the three scratch buffers, found at anything, are reset (running maximum
  to -inf, denominator and numerator to zero) and then updated with this tile's scores; the output tile is not
  touched. The run finds, per scratch buffer, the list of stores it ends with.
-/
import proofs.«171233_j76312978915618_2_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S1024x1024 .f32) (x2 : Vec F S1024x1024 .bf16) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KB.Run1B.lean ====
/-
  The attention body at a MIDDLE key tile: the scratch buffers hold what the tile before left; they are updated with
  this tile's scores; the output tile is not touched.
-/
import proofs.«171233_j76312978915618_2_alg».proof.Proof.KB.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KB.Run1C.lean ====
/-
  The attention body at a LAST key tile: the scratch buffers hold what the tile before left; they are updated with
  this tile's scores, and the output tile is stored: the running numerator divided by the running denominator.
-/
import proofs.«171233_j76312978915618_2_alg».proof.Proof.KB.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KB.Covers1.lean ====
/-
  The attention body's stores cover what they are meant to cover: in every case the stores into each scratch buffer
  tile it, and at a last key tile the one store into the output tile covers it.
-/
import proofs.«171233_j76312978915618_2_alg».proof.Proof.KB.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S1024x1024 .f32) (x2 : Vec F S1024x1024 .bf16)  (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y
theorem scover1_A_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S1024x1024 .f32) (x2 : Vec F S1024x1024 .bf16)  (y : S512x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1.size (by sl_kernel_rfl) y
theorem scover1_A_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S1024x1024 .f32) (x2 : Vec F S1024x1024 .bf16)  (y : S512x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S512x1024.size (by sl_kernel_rfl) y
theorem scover1_B_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y
theorem scover1_B_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1.size (by sl_kernel_rfl) y
theorem scover1_B_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S512x1024.size (by sl_kernel_rfl) y
theorem scover1_C_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y
theorem scover1_C_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y
theorem scover1_C_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y
theorem cover1_C_3 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y

end Cert.Kernel.Hand

end
-- ==== Proof.KB.Region1.lean ====
/-
  The attention region (the second pallas_call), at the contents V the region finds. Its 128 points are 16 query
  tiles by 8 key tiles. The three scratch buffers carry, from one key tile to the next, the running maximum, the
  running denominator and the running numerator of the softmax; the output tile is stored at the last key tile only.
  Here: what the output's staging buffer and the three scratch buffers hold after each point (a recursion over the
  points, by case), the region invariant that carries the scratch contents, the proof data, the body obligation.
-/
import proofs.«171233_j76312978915618_2_alg».proof.Proof.KB.Covers1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after a point -/

/-- The output tile's staging buffer and the three scratch buffers. -/
abbrev St (F : FTy → Type) : Type := Vec F S512x1024 .f32 × Vec F S512x1 .f32 × Vec F S512x1 .f32 × Vec F S512x1024 .f32

def readO3 (L : List (View.Piece (Elt F) S512x1024 .f32)) : Vec F S512x1024 .f32 := VO1_3.read (Elt F) (VO1_3.writes (Elt F) VO1_3.junk L)
def readS0 (L : List (View.Piece (Elt F) S512x1 .f32)) : Vec F S512x1 .f32 := VS1_0.read (Elt F) (VS1_0.writes (Elt F) VS1_0.junk L)
def readS1 (L : List (View.Piece (Elt F) S512x1 .f32)) : Vec F S512x1 .f32 := VS1_1.read (Elt F) (VS1_1.writes (Elt F) VS1_1.junk L)
def readS2 (L : List (View.Piece (Elt F) S512x1024 .f32)) : Vec F S512x1024 .f32 := VS1_2.read (Elt F) (VS1_2.writes (Elt F) VS1_2.junk L)

/-- After a first key tile. -/
def stA (c : Dev nD) (t : Fin cfg1.N) (h0 : t.val % 8 = 0) (h1 : ¬t.val % 8 = 7) : St F :=
  (readO3 (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1, readS0 (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1, readS1 (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1, readS2 (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.1)
/-- After a middle key tile, over what the tile before left. -/
def stB (c : Dev nD) (t : Fin cfg1.N) (h0 : ¬t.val % 8 = 0) (h1 : ¬t.val % 8 = 7) (p : St F) : St F :=
  (readO3 (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2).1, readS0 (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2).2.1, readS1 (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2).2.2.1, readS2 (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2).2.2.2.1)
/-- After a last key tile, over what the tile before left. -/
def stC (c : Dev nD) (t : Fin cfg1.N) (h0 : ¬t.val % 8 = 0) (h1 : t.val % 8 = 7) (p : St F) : St F :=
  (readO3 (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2).1, readS0 (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2).2.1, readS1 (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2).2.2.1, readS2 (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2).2.2.2.1)

/-- What the output's staging buffer and the scratch buffers hold after the body at position `n`. -/
def outsAt1 (c : Dev nD) : (n : ℕ) → n < cfg1.N → St F
  | 0, hn => stA V c ⟨0, hn⟩ (Nat.zero_mod _) (by show ¬(0 % 8 = 7); decide)
  | n + 1, hn =>
    if h0 : (n + 1) % 8 = 0 then stA V c ⟨n + 1, hn⟩ h0 (by show ¬((n + 1) % 8 = 7); omega)
    else if h1 : (n + 1) % 8 = 7 then stC V c ⟨n + 1, hn⟩ h0 h1 (outsAt1 c n (Nat.lt_of_succ_lt hn))
    else stB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stA V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant: the scratch buffers at what the point before left -/

def PhiS (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS_pos (c : Dev nD) (n : ℕ) (h : n ≤ cfg1.N) (hz : n ≠ 0) :
    PhiS V c n h = iprop(rest1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold stA readS0 readS1 readS2; (try dsimp only)
    by_cases hz : t.val = 0
    · rw [PhiS_castSucc V c t, PhiS_zero V c _ _ hz]
      iintro ⟨HPhi, Ho, ⟨%d0, H0⟩, ⟨%d1, H1⟩, ⟨%d2, H2⟩, ⟨%d3, H3⟩⟩
      ihave HPhi2 := (PhiA1_open (F := F) c) $$ HPhi
      icases HPhi2 with ⟨Hr, HS0, HS1, HS2, Hg⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold stC readO3 readS0 readS1 readS2; (try dsimp only)
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold stB readS0 readS1 readS2; (try dsimp only)
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the region's scoped rest back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht]
  refine .trans ?_ (PhiA1_close (F := F) c)
  iintro ⟨Hr, HS0, HS1, HS2, Hg⟩
  isplitl [Hr]; · iexact Hr
  isplitl [HS0]; · iexists _; iexact HS0
  isplitl [HS1]; · iexists _; iexact HS1
  isplitl [HS2]; · iexists _; iexact HS2
  iexact Hg

end Region1

end Cert.Kernel.Hand

end
-- ==== Proof.KB.Frame.lean ====
/-
  The whole run of @main: one stretch of host operations (the concatenation [wq|wk] and the cast of wv), the
  projection region, the attention region. The buffer contents at each boundary are a fold from the launch memory:
  a host stretch applies its operations; a region leaves each of its arrays at what its write-backs fold to and every
  other buffer as it was. Each region enters the pipeline as a segment over the thread state "every unscoped buffer
  at the boundary's contents, the generator register at some state, nothing owed"; the second region's invariant
  carries its scratch contents between points and forgets them at the end. The run ends with every unscoped buffer
  at the last boundary's contents: the arguments as launched, the result at what the attention region's write-backs
  leave.
-/
import proofs.«171233_j76312978915618_2_alg».proof.Proof.KB.Region0
import proofs.«171233_j76312978915618_2_alg».proof.Proof.KB.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result named: the result array ends at what the attention region's write-backs fold to. -/
theorem run_value : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.KI.Runs.lean ====
/-
  The attention region's body, case by case: what is shared by its three runs.

  The grid of the second pallas_call is 16 query tiles by 8 key tiles, the key axis innermost. The body branches
  twice on the key coordinate: at the first key tile it resets the three scratch buffers (running maximum, running
  denominator, running numerator), at the last it divides and stores the output tile. So a point is in one of three
  cases: first (reset, no output), middle (neither), last (output stored). Here: the two conditions in closed form
  over the 128 points, where the output window is idle, and the names the runs are stated over.
-/
import proofs.«171233_j76312978915618_2_alg».proof.Proof.Gen.KernelIdeal.Launch
import proofs.«171233_j76312978915618_2_alg».proof.Proof.Gen.KernelIdeal.Skeleton
import proofs.«171233_j76312978915618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The body's first test: the key coordinate is 0. -/
abbrev cond1_0 (i : grid1.Coords) : Prop := (Scalar.cmpi .ne (Scalar.extui (Scalar.cmpi .eq (BitVec.ofNat 32 (i 1).val) 0#32)) 0#32) = 1#1
/-- It holds exactly at the first key tile of each query tile. -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second test: the key coordinate is 7. -/
abbrev cond1_1 (i : grid1.Coords) : Prop := k1_cond2 i = 1#1
/-- It holds exactly at the last key tile of each query tile. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the body stores nothing into the output tile, -/
theorem idleAt1_3 : ∀ t : Fin cfg1.N, ¬cond1_1 (grid1.coords t) → cfg1.idle 3 (grid1.coords t) = true := by decide +kernel
/-- and the pipeline does not write it back there. -/
theorem noFlush1_3 : ∀ t : Fin cfg1.N, ¬cond1_1 (grid1.coords t) → (cfg1.win 3).flush t = false := by decide +kernel
/-- At the last key tile the output tile is stored. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The three scratch buffers: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view
/-- One staging buffer of the output window, through which its contents are stated. -/
abbrev VO1_3 : View sig .tc .vmem S512x1024 .f32 := (Memref.whole cc1_stg3_0 : Memref sig .tc .vmem S512x1024 .f32).view

/-- The scoped buffers of the core that are neither this region's staging buffers nor its scratch (the first region's
    staging buffers), each whole at some contents: they ride along untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The region's scoped rest, opened: the other region's staging buffers, the three scratch buffers at some
    contents, and the generator register. -/
theorem PhiA1_open (c : Dev nD) :
    (Pipeline.ΦA spec1 c : sProp 𝕄)
      ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA rest1; rw [scopedRest1_eq]; simp only [scM1_0, scM1_1, scM1_2, owns_whole]
  iintro ⟨⟨H0, H1, H2, H3, H4, H5, H6, H7, H8, H9, HS0, HS1, HS2⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS0]; · iexact HS0
  isplitl [HS1]; · iexact HS1
  isplitl [HS2]; · iexact HS2
  iexact Hg

/-- And closed again. -/
theorem PhiA1_close (c : Dev nD) :
    iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  unfold Pipeline.ΦA rest1; rw [scopedRest1_eq]; simp only [scM1_0, scM1_1, scM1_2, owns_whole]
  iintro ⟨⟨H0, H1, H2, H3, H4, H5, H6, H7, H8, H9⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iexact Hg

end Cert.KernelIdeal.Hand

end
-- ==== Proof.KI.Region0.lean ====
/-
  The projection region (the first pallas_call), at the contents V the region finds: each of its 32 points reads a
  tile of 256 rows of x and the two whole weights, and stores three tiles of 256 rows: the left and the right half of
  x·[wq|wk], and x·wv. The body's triple, the proof data and the body obligation, in the shape of a body that loads,
  computes and stores through whole-tile rectangles.
-/
import proofs.«171233_j76312978915618_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: whole tiles -/

abbrev r0_x : Rect S256x1024 := Rect.unit (s := S256x1024) ![0, 0] S256x1024.size inb_S256x1024_S256x1024_0_0
abbrev r0_wqk : Rect S1024x2048 := Rect.unit (s := S1024x2048) ![0, 0] S1024x2048.size inb_S1024x2048_S1024x2048_0_0
abbrev r0_wv : Rect S1024x1024 := Rect.unit (s := S1024x1024) ![0, 0] S1024x1024.size inb_S1024x1024_S1024x1024_0_0

/-- The query tile the body leaves: the left half of the tile of x times [wq|wk]. -/
def out0_3 (x0 : Vec F S256x1024 .f32) (x1 : Vec F S1024x2048 .f32) : Vec F S256x1024 .f32 :=
  View.canon [⟨r0_x, k0_pay2 (View.ld x0 r0_x) (View.ld x1 r0_wqk)⟩]
/-- The key tile: the right half. -/
def out0_4 (x0 : Vec F S256x1024 .f32) (x1 : Vec F S1024x2048 .f32) : Vec F S256x1024 .f32 :=
  View.canon [⟨r0_x, k0_pay3 (View.ld x0 r0_x) (View.ld x1 r0_wqk)⟩]
/-- The value tile: the tile of x times wv. -/
def out0_5 (x0 : Vec F S256x1024 .f32) (x2 : Vec F S1024x1024 .bf16) : Vec F S256x1024 .bf16 :=
  View.canon [⟨r0_x, k0_pay4 (View.ld x0 r0_x) (View.ld x2 r0_wv)⟩]

theorem cover0_f32 (p0 : Vec F S256x1024 .f32) (y : S256x1024.Idx) :
    ∃ pc ∈ ([⟨r0_x, p0⟩] : List (View.Piece (Elt F) S256x1024 .f32)), y ∈ pc.1.set :=
  View.cover_of_tiled [⟨r0_x, p0⟩] S256x1024.size (by rfl) y
theorem cover0_bf16 (p0 : Vec F S256x1024 .bf16) (y : S256x1024.Idx) :
    ∃ pc ∈ ([⟨r0_x, p0⟩] : List (View.Piece (Elt F) S256x1024 .bf16)), y ∈ pc.1.set :=
  View.cover_of_tiled [⟨r0_x, p0⟩] S256x1024.size (by rfl) y

set_option maxHeartbeats 4000000 in
theorem sound_kernel0 (c : Dev nD) (E : Set ℕ) (i : grid0.Coords) (arg1 : Memref sig .tc .vmem S256x1024 .f32) (harg1 : arg1.IsWhole) (arg2 : Memref sig .tc .vmem S1024x2048 .f32) (harg2 : arg2.IsWhole) (arg3 : Memref sig .tc .vmem S1024x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole)
    (x0 : Vec F S256x1024 .f32) (x1 : Vec F S1024x2048 .f32) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1) ∗ owns (c : Thread nD τ) arg6 fullShare (out0_5 x0 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_f32 _)
  isplitl [H4]
  · iexists _; isplitr
    swap; · iexact H4
    ipureintro
    exact View.read_writes_eq_canon _ _ _ (cover0_f32 _)
  iexists _; isplitr
  swap; · iexact H5
  ipureintro
  exact View.read_writes_eq_canon _ _ _ (cover0_bf16 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Run1A.lean ====
/-
  The attention body at a FIRST key tile: the three scratch buffers, found at anything, are reset (running maximum
  to -inf, denominator and numerator to zero) and then updated with this tile's scores; the output tile is not
  touched. The run finds, per scratch buffer, the list of stores it ends with.
-/
import proofs.«171233_j76312978915618_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S1024x1024 .f32) (x2 : Vec F S1024x1024 .bf16) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Run1B.lean ====
/-
  The attention body at a MIDDLE key tile: the scratch buffers hold what the tile before left; they are updated with
  this tile's scores; the output tile is not touched.
-/
import proofs.«171233_j76312978915618_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Run1C.lean ====
/-
  The attention body at a LAST key tile: the scratch buffers hold what the tile before left; they are updated with
  this tile's scores, and the output tile is stored: the running numerator divided by the running denominator.
-/
import proofs.«171233_j76312978915618_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Covers1.lean ====
/-
  The attention body's stores cover what they are meant to cover: in every case the stores into each scratch buffer
  tile it, and at a last key tile the one store into the output tile covers it.
-/
import proofs.«171233_j76312978915618_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S1024x1024 .f32) (x2 : Vec F S1024x1024 .bf16)  (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y
theorem scover1_A_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S1024x1024 .f32) (x2 : Vec F S1024x1024 .bf16)  (y : S512x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1.size (by sl_kernel_rfl) y
theorem scover1_A_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S1024x1024 .f32) (x2 : Vec F S1024x1024 .bf16)  (y : S512x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S512x1024.size (by sl_kernel_rfl) y
theorem scover1_B_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y
theorem scover1_B_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1.size (by sl_kernel_rfl) y
theorem scover1_B_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S512x1024.size (by sl_kernel_rfl) y
theorem scover1_C_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y
theorem scover1_C_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y
theorem scover1_C_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y
theorem cover1_C_3 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S1024x1024 .f32) (x2 : Vec F S1024x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y

end Cert.KernelIdeal.Hand

end
-- ==== Proof.KI.Region1.lean ====
/-
  The attention region (the second pallas_call), at the contents V the region finds. Its 128 points are 16 query
  tiles by 8 key tiles. The three scratch buffers carry, from one key tile to the next, the running maximum, the
  running denominator and the running numerator of the softmax; the output tile is stored at the last key tile only.
  Here: what the output's staging buffer and the three scratch buffers hold after each point (a recursion over the
  points, by case), the region invariant that carries the scratch contents, the proof data, the body obligation.
-/
import proofs.«171233_j76312978915618_2_alg».proof.Proof.KI.Covers1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after a point -/

/-- The output tile's staging buffer and the three scratch buffers. -/
abbrev St (F : FTy → Type) : Type := Vec F S512x1024 .f32 × Vec F S512x1 .f32 × Vec F S512x1 .f32 × Vec F S512x1024 .f32

def readO3 (L : List (View.Piece (Elt F) S512x1024 .f32)) : Vec F S512x1024 .f32 := VO1_3.read (Elt F) (VO1_3.writes (Elt F) VO1_3.junk L)
def readS0 (L : List (View.Piece (Elt F) S512x1 .f32)) : Vec F S512x1 .f32 := VS1_0.read (Elt F) (VS1_0.writes (Elt F) VS1_0.junk L)
def readS1 (L : List (View.Piece (Elt F) S512x1 .f32)) : Vec F S512x1 .f32 := VS1_1.read (Elt F) (VS1_1.writes (Elt F) VS1_1.junk L)
def readS2 (L : List (View.Piece (Elt F) S512x1024 .f32)) : Vec F S512x1024 .f32 := VS1_2.read (Elt F) (VS1_2.writes (Elt F) VS1_2.junk L)

/-- After a first key tile. -/
def stA (c : Dev nD) (t : Fin cfg1.N) (h0 : t.val % 8 = 0) (h1 : ¬t.val % 8 = 7) : St F :=
  (readO3 (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1, readS0 (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1, readS1 (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1, readS2 (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.1)
/-- After a middle key tile, over what the tile before left. -/
def stB (c : Dev nD) (t : Fin cfg1.N) (h0 : ¬t.val % 8 = 0) (h1 : ¬t.val % 8 = 7) (p : St F) : St F :=
  (readO3 (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2).1, readS0 (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2).2.1, readS1 (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2).2.2.1, readS2 (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2).2.2.2.1)
/-- After a last key tile, over what the tile before left. -/
def stC (c : Dev nD) (t : Fin cfg1.N) (h0 : ¬t.val % 8 = 0) (h1 : t.val % 8 = 7) (p : St F) : St F :=
  (readO3 (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2).1, readS0 (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2).2.1, readS1 (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2).2.2.1, readS2 (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2).2.2.2.1)

/-- What the output's staging buffer and the scratch buffers hold after the body at position `n`. -/
def outsAt1 (c : Dev nD) : (n : ℕ) → n < cfg1.N → St F
  | 0, hn => stA V c ⟨0, hn⟩ (Nat.zero_mod _) (by show ¬(0 % 8 = 7); decide)
  | n + 1, hn =>
    if h0 : (n + 1) % 8 = 0 then stA V c ⟨n + 1, hn⟩ h0 (by show ¬((n + 1) % 8 = 7); omega)
    else if h1 : (n + 1) % 8 = 7 then stC V c ⟨n + 1, hn⟩ h0 h1 (outsAt1 c n (Nat.lt_of_succ_lt hn))
    else stB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stA V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant: the scratch buffers at what the point before left -/

def PhiS (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS_pos (c : Dev nD) (n : ℕ) (h : n ≤ cfg1.N) (hz : n ≠ 0) :
    PhiS V c n h = iprop(rest1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold stA readS0 readS1 readS2; (try dsimp only)
    by_cases hz : t.val = 0
    · rw [PhiS_castSucc V c t, PhiS_zero V c _ _ hz]
      iintro ⟨HPhi, Ho, ⟨%d0, H0⟩, ⟨%d1, H1⟩, ⟨%d2, H2⟩, ⟨%d3, H3⟩⟩
      ihave HPhi2 := (PhiA1_open (F := F) c) $$ HPhi
      icases HPhi2 with ⟨Hr, HS0, HS1, HS2, Hg⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold stC readO3 readS0 readS1 readS2; (try dsimp only)
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold stB readS0 readS1 readS2; (try dsimp only)
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the region's scoped rest back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht]
  refine .trans ?_ (PhiA1_close (F := F) c)
  iintro ⟨Hr, HS0, HS1, HS2, Hg⟩
  isplitl [Hr]; · iexact Hr
  isplitl [HS0]; · iexists _; iexact HS0
  isplitl [HS1]; · iexists _; iexact HS1
  isplitl [HS2]; · iexists _; iexact HS2
  iexact Hg

end Region1

end Cert.KernelIdeal.Hand

end
-- ==== Proof.KI.Frame.lean ====
/-
  The whole run of @main: one stretch of host operations (the concatenation [wq|wk] and the cast of wv), the
  projection region, the attention region. The buffer contents at each boundary are a fold from the launch memory:
  a host stretch applies its operations; a region leaves each of its arrays at what its write-backs fold to and every
  other buffer as it was. Each region enters the pipeline as a segment over the thread state "every unscoped buffer
  at the boundary's contents, the generator register at some state, nothing owed"; the second region's invariant
  carries its scratch contents between points and forgets them at the end. The run ends with every unscoped buffer
  at the last boundary's contents: the arguments as launched, the result at what the attention region's write-backs
  leave.
-/
import proofs.«171233_j76312978915618_2_alg».proof.Proof.KI.Region0
import proofs.«171233_j76312978915618_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result named: the result array ends at what the attention region's write-backs fold to. -/
theorem run_value : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.LibDotRhsLast.lean ====
/-
  A matrix product against a right operand contracted on its LAST axis, read at an entry, over the extended reals.

  The product of an [M, K] array x with an [N, K] array w into [M, N] — the second axis of BOTH operands contracted, no
  batch axes, no transpose written out — has at (p, q) the value  Σ_k x(p, k) · w(q, k):  row p of x against row q of w.
  For the device's product into the zero accumulator this is the exact finite sum over the contracted coordinate, and the
  contraction index of a one-axis contraction is that coordinate.
-/
import Idealize.ShloMosaic.Lib.ValueIdx
import Idealize.ShloMosaic.PureOps.Ideal.Laws

namespace Cert.LibDotRhsLast

open Idealize.ShloMosaic Idealize.ShloMosaic.ValueIdx

variable {M K N : ℕ}

/-- The left operand's row coordinate is the result's row coordinate. -/
theorem lhs_row (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row coordinate is the result's column coordinate. -/
theorem rhs_row (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- At the k-th contraction coordinate the left operand is read at (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => exact lhs_row _ _
  | ⟨1, _⟩ => exact (lhs_col _ _).trans hk

/-- At the k-th contraction coordinate the right operand is read at (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => exact rhs_row _ _
  | ⟨1, _⟩ => exact (rhs_col _ _).trans hk

/-- The device's product into the zero accumulator, at (p, q), is Σ_k x(p, k) · w(q, k). -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    matmul (DotDims.transposedRhs M K N) prec x w (constant (F := Ideal) ⟨2, ![M, N]⟩ .f32 0x00000000#32) (ix2 p q)
      = ∑ k : Fin K, x (ix2 p k) * w (ix2 q k) := by
  refine (Ideal.matmul_constant_zero_apply (DotDims.transposedRhs M K N) prec x w (ix2 p q)).trans ?_
  refine (Equiv.sum_comp (contrEquiv1 (DotDims.transposedRhs M K N) K rfl rfl).symm _).symm.trans ?_
  exact Finset.sum_congr rfl fun k _ => by rw [lhsIdx_eq p q k, rhsIdx_eq p q k]

end Cert.LibDotRhsLast
-- ==== Proof.LibSliceCols.lean ====
/-
  A block of consecutive columns cut out of a matrix, read at an entry.

  The unit-stride slice that keeps every row of an [a, b] array and the n columns starting at column off has,
  at (p, q), the array's value at (p, off + q).
-/
import Idealize.ShloMosaic.Lib.Pipeline.Value
import Idealize.ShloMosaic.Lib.ValueIdx

namespace Cert.LibSliceCols

open Idealize.ShloMosaic Idealize.ShloMosaic.ValueIdx

/-- The slice of columns [off, off + n) of x, at (p, q), is x at (p, off + q). -/
theorem slice_cols_apply {α : Type} {a b n : ℕ} (off : ℕ) (x : (⟨2, ![a, b]⟩ : Shape).Idx → α)
    (h : (⟨2, ![a, b]⟩ : Shape).Slices ![0, off] ⟨2, ![a, n]⟩) (hb : off + n ≤ b) (p : Fin a) (q : Fin n) :
    extractStridedSlice ⟨2, ![a, n]⟩ ![0, off] x h (ix2 p q)
      = x (ix2 p ⟨off + q.val, Nat.lt_of_lt_of_le (Nat.add_lt_add_left q.isLt off) hb⟩) :=
  extractStridedSlice_apply ![0, off] x h (ix2 p q) (ix2 p ⟨off + q.val, Nat.lt_of_lt_of_le (Nat.add_lt_add_left q.isLt off) hb⟩)
    fun c => match c with
      | ⟨0, _⟩ => (Nat.zero_add p.val).symm
      | ⟨1, _⟩ => rfl

end Cert.LibSliceCols
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.LibRowReduce.lean ====
/-
  Reductions of a matrix along its rows, read at a row, over the extended reals.

  Reducing an [n, m] matrix over its second axis leaves a vector of length n. Its entry p is the row's fold: for a
  maximum, the fold of max from the initial value over the m entries of row p; for a sum, the initial value plus the sum
  of the m entries of row p. This holds for the device's reductions and for the host's alike, the operand index over
  row p with second coordinate k being (p, k).
-/
import Idealize.ShloMosaic.Lib.ValueIdx
import Idealize.ShloMosaic.PureOps.Ideal.Laws

namespace Cert.LibRowReduce

open Idealize.ShloMosaic Idealize.ShloMosaic.ValueIdx

variable {n m : ℕ}

/-- Over row `p`, the operand index with second coordinate `k` is `(p, k)`. -/
theorem lift_row (h : (⟨2, ![n, m]⟩ : Shape).Reduces [(1 : Fin 2)] ⟨1, ![n]⟩) (p : Fin n) (k : Fin m) :
    h.lift (ix1 p) k = ix2 p k := by
  funext c
  apply Fin.ext
  show h.liftVal (ix1 p) k.val c = (ix2 p k c).val
  unfold Shape.Reduces.liftVal
  match c with
  | ⟨0, _⟩ => rw [dif_neg (by simp), dif_pos (by simp)]
  | ⟨1, _⟩ => rw [dif_pos (by simp)]

/-- The device's row maximum at row `p`: the fold of max from the accumulator's value over the row. -/
theorem multiReduction_max_row {φ : FTy} (src : FVec Ideal ⟨2, ![n, m]⟩ φ) (acc : BitVec φ.bits)
    (h : (⟨2, ![n, m]⟩ : Shape).Reduces [(1 : Fin 2)] ⟨1, ![n]⟩) (hφ : FKind.Formats φ)
    (hacc : acc = FKind.maximumf.neutral φ hφ) (p : Fin n) :
    multiReduction .maximumf [(1 : Fin 2)] ⟨1, ![n]⟩ src acc h hφ hacc (ix1 p)
      = (Finset.univ : Finset (Fin m)).fold max (Ideal.ofBits φ acc) (fun k => src (ix2 p k)) := by
  refine (Ideal.multiReduction_maximumf_single src acc h hφ hacc (ix1 p)).trans ?_
  show (Finset.univ : Finset (Fin m)).fold max (Ideal.ofBits φ acc) (src ∘ h.lift (ix1 p)) = _
  exact congrArg (fun g => (Finset.univ : Finset (Fin m)).fold max (Ideal.ofBits φ acc) g)
    (funext fun k => congrArg src (lift_row h p k))

/-- The device's row sum at row `p`: the sum of the row. -/
theorem multiReduction_add_row {φ : FTy} (src : FVec Ideal ⟨2, ![n, m]⟩ φ) (acc : BitVec φ.bits)
    (h : (⟨2, ![n, m]⟩ : Shape).Reduces [(1 : Fin 2)] ⟨1, ![n]⟩) (hφ : FKind.Formats φ)
    (hacc : acc = FKind.add.neutral φ hφ) (p : Fin n) :
    multiReduction .add [(1 : Fin 2)] ⟨1, ![n]⟩ src acc h hφ hacc (ix1 p) = ∑ k : Fin m, src (ix2 p k) := by
  refine (Ideal.multiReduction_add_single src acc h hφ hacc (ix1 p)).trans ?_
  show ∑ k : Fin m, src (h.lift (ix1 p) k) = _
  exact Finset.sum_congr rfl fun k _ => congrArg src (lift_row h p k)

/-- The host's row reduction by a commutative, associative operation at row `p`: the fold from the initial value. -/
theorem hostReduce_row {α : Type} {u : Shape} (f : α → α → α) [Std.Commutative f] [Std.Associative f]
    (x : (⟨2, ![n, m]⟩ : Shape).Idx → α) (init : u.Idx → α)
    (h' : (⟨2, ![n, m]⟩ : Shape).ReducesTo [(1 : Fin 2)] ⟨1, ![n]⟩)
    (h : (⟨2, ![n, m]⟩ : Shape).Reduces [(1 : Fin 2)] ⟨1, ![n]⟩) (hu : 0 < u.numel) (p : Fin n) :
    Host.reduce f x init h' hu (ix1 p)
      = (Finset.univ : Finset (Fin m)).fold f (init (Shape.Idx.first hu)) (fun k => x (ix2 p k)) := by
  refine (Host.reduce_eq_fold_single f x init h' h hu (ix1 p)).trans ?_
  show (Finset.univ : Finset (Fin m)).fold f (init (Shape.Idx.first hu)) (x ∘ h.lift (ix1 p)) = _
  exact congrArg (fun g => (Finset.univ : Finset (Fin m)).fold f (init (Shape.Idx.first hu)) g)
    (funext fun k => congrArg x (lift_row h p k))

/-- The host's row sum at row `p`: the initial value plus the sum of the row. -/
theorem hostReduceAdd_row {φ : FTy} {u : Shape} (x : FVec Ideal ⟨2, ![n, m]⟩ φ) (init : u.Idx → Ideal φ)
    (h' : (⟨2, ![n, m]⟩ : Shape).ReducesTo [(1 : Fin 2)] ⟨1, ![n]⟩)
    (h : (⟨2, ![n, m]⟩ : Shape).Reduces [(1 : Fin 2)] ⟨1, ![n]⟩) (hu : 0 < u.numel) (p : Fin n) :
    Host.reduceAdd x init h' hu (ix1 p) = init (Shape.Idx.first hu) + ∑ k : Fin m, x (ix2 p k) := by
  refine (Ideal.hostReduceAdd_single h' h x (init (Shape.Idx.first hu)) (ix1 p)).trans ?_
  show init (Shape.Idx.first hu) + ∑ k : Fin m, x (h.lift (ix1 p) k) = _
  exact congrArg (fun s => init (Shape.Idx.first hu) + s) (Finset.sum_congr rfl fun k _ => congrArg x (lift_row h p k))

end Cert.LibRowReduce
-- ==== Proof.LibSupBlocks.lean ====
/-
  A maximum taken block by block.

  Over a linear order with a least element, folding `max` from the least element over a finite set is the set's
  supremum; and the supremum over `Fin (a * b)` is the supremum over the `a` blocks of the suprema over the `b` members
  of each block, member `k` of block `s` being index `b * s + k`. So a column maximum computed tile by tile and then
  combined over the tiles is the column maximum.
-/
import Idealize.ShloMosaic.Lib.ValueIdx

namespace Cert.LibSupBlocks

variable {α : Type*} [LinearOrder α] [OrderBot α]

/-- Folding `max` from the least element is the supremum. -/
theorem fold_max_bot_eq_sup {ι : Type*} (s : Finset ι) (f : ι → α) : s.fold max ⊥ f = s.sup f := by
  classical
  induction s using Finset.induction_on with
  | empty => simp
  | insert i s hi ih => rw [Finset.fold_insert hi, Finset.sup_insert, ih]

/-- Member `k` of block `s` lies below `a * b`. -/
theorem blk_lt {a b : ℕ} (s : Fin a) (k : Fin b) : b * s.val + k.val < a * b := by
  have hs : s.val + 1 ≤ a := s.isLt
  have hk := k.isLt
  calc b * s.val + k.val < b * s.val + b := by omega
    _ = b * (s.val + 1) := by ring
    _ ≤ b * a := Nat.mul_le_mul_left b hs
    _ = a * b := Nat.mul_comm b a

/-- The supremum over `Fin (a * b)`, block by block. -/
theorem sup_fin_blocks {a b : ℕ} (g : Fin (a * b) → α) :
    (Finset.univ : Finset (Fin (a * b))).sup g
      = (Finset.univ : Finset (Fin a)).sup fun s => (Finset.univ : Finset (Fin b)).sup fun k => g ⟨b * s.val + k.val, blk_lt s k⟩ := by
  apply le_antisymm
  · refine Finset.sup_le fun r _ => ?_
    have hr : r.val < a * b := r.isLt
    have hb : 0 < b := Nat.pos_of_ne_zero fun h => by subst h; simp at hr
    have hq : r.val / b < a := Nat.div_lt_of_lt_mul (lt_of_lt_of_eq hr (Nat.mul_comm a b))
    have hm : r.val % b < b := Nat.mod_lt _ hb
    have e : r = ⟨b * (⟨r.val / b, hq⟩ : Fin a).val + (⟨r.val % b, hm⟩ : Fin b).val, blk_lt _ _⟩ :=
      Fin.ext (Nat.div_add_mod r.val b).symm
    calc g r = g ⟨b * (⟨r.val / b, hq⟩ : Fin a).val + (⟨r.val % b, hm⟩ : Fin b).val, blk_lt _ _⟩ := congrArg g e
      _ ≤ (Finset.univ : Finset (Fin b)).sup fun k => g ⟨b * (⟨r.val / b, hq⟩ : Fin a).val + k.val, blk_lt _ k⟩ :=
          Finset.le_sup (f := fun k : Fin b => g ⟨b * (⟨r.val / b, hq⟩ : Fin a).val + k.val, blk_lt _ k⟩) (Finset.mem_univ _)
      _ ≤ _ := Finset.le_sup (f := fun s : Fin a => (Finset.univ : Finset (Fin b)).sup fun k => g ⟨b * s.val + k.val, blk_lt s k⟩)
          (Finset.mem_univ (⟨r.val / b, hq⟩ : Fin a))
  · refine Finset.sup_le fun s _ => Finset.sup_le fun k _ => ?_
    exact Finset.le_sup (f := g) (Finset.mem_univ _)

end Cert.LibSupBlocks
-- ==== Proof.KI.PayIdeal.lean ====
/-
  The two kernels' payloads read at an index, over the extended reals.

  The projection kernel multiplies a [256, 1024] block x by a [1024, 2048] weight and keeps the left and the right half of
  the 2048 columns, and multiplies x by a [1024, 1024] weight; at (p, d) each is the finite sum over the contracted
  coordinate,  Σ_k x(p, k) · w(k, ·).  The format changes in between are the identity on the extended reals.

  The flash kernel's step, for a [512, 1024] block q of queries, a [1024, 1024] block kk of keys and vv of values, the old
  running maximum mo, normaliser lo and accumulator ao (columns [512, 1] kept as such):
      score (r, j)   = Σ_e q(r, e) · kk(j, e)                     (the second axis of BOTH contracted)
      newmax r       = max (mo r) (sup_j score (r, j))            (the row maximum starts from -∞, the lattice's bottom)
      alpha r        = exp (mo' r - newmax r)
      weight (r, j)  = exp (score (r, j) - newmax r)
      newnorm r      = alpha r · lo r + Σ_j weight (r, j)         (the lane sum starts from 0)
      newacc (r, d)  = alpha r · ao (r, d) + Σ_j weight (r, j) · vv (j, d)
  and its last step divides the accumulator by the normaliser's column; the initial state is -∞, 0, 0.
-/
import proofs.«171233_j76312978915618_2_alg».proof.Proof.Gen.KernelIdeal.Skeleton
import proofs.«171233_j76312978915618_2_alg».proof.Proof.LibPlainDot
import proofs.«171233_j76312978915618_2_alg».proof.Proof.LibDotRhsLast
import proofs.«171233_j76312978915618_2_alg».proof.Proof.LibSliceCols
import proofs.«171233_j76312978915618_2_alg».proof.Proof.LibKeepdims
import proofs.«171233_j76312978915618_2_alg».proof.Proof.LibRowReduce
import proofs.«171233_j76312978915618_2_alg».proof.Proof.LibSupBlocks
import Idealize.ShloMosaic.Lib.ValueIdx
import Idealize.ShloMosaic.Lib.Pipeline.Value
import Idealize.ShloMosaic.Lib.ValueLayout
import Idealize.ShloMosaic.PureOps.Ideal.Laws

namespace Cert.KernelIdeal.PayIdeal

open Idealize.ShloMosaic Idealize.ShloMosaic.ValueIdx Cert.KernelIdeal.Gen

/-- The f32 pattern of -∞ is the bottom of the extended reals. -/
theorem ofBits_neg_inf_f32 : Ideal.ofBits .f32 0xFF800000#32 = ⊥ := by
  simp [Ideal.ofBits, Ideal.ieee]

/-! ## The projection kernel -/

/-- The [256, 2048] product at (p, c): the sum over the contracted coordinate. -/
theorem k0_pay1_apply (v0 : Vec Ideal S256x1024 .f32) (v1 : Vec Ideal S1024x2048 .f32) (p : Fin 256) (c : Fin 2048) :
    k0_pay1 v0 v1 (ix2 p c) = ∑ k : Fin 1024, v0 (ix2 p k) * v1 (ix2 k c) := by
  unfold k0_pay1
  rw [shapeCast_self]
  exact Cert.LibPlainDot.matmul_zero_apply (some .fp32) v0 v1 p c

/-- The left half of the 2048 columns. -/
theorem k0_pay2_apply (v0 : Vec Ideal S256x1024 .f32) (v1 : Vec Ideal S1024x2048 .f32) (p : Fin 256) (d : Fin 1024) :
    k0_pay2 v0 v1 (ix2 p d) = ∑ k : Fin 1024, v0 (ix2 p k) * v1 (ix2 k ⟨d.val, by omega⟩) := by
  unfold k0_pay2
  refine (Cert.LibSliceCols.slice_cols_apply 0 (k0_pay1 v0 v1) slices_S256x2048_o0_0_S256x1024 (by norm_num) p d).trans ?_
  rw [k0_pay1_apply]
  refine Finset.sum_congr rfl fun k _ => ?_
  simp only [Nat.zero_add]

/-- The right half of the 2048 columns. -/
theorem k0_pay3_apply (v0 : Vec Ideal S256x1024 .f32) (v1 : Vec Ideal S1024x2048 .f32) (p : Fin 256) (d : Fin 1024) :
    k0_pay3 v0 v1 (ix2 p d) = ∑ k : Fin 1024, v0 (ix2 p k) * v1 (ix2 k ⟨1024 + d.val, by omega⟩) := by
  unfold k0_pay3
  refine (Cert.LibSliceCols.slice_cols_apply 1024 (k0_pay1 v0 v1) slices_S256x2048_o0_1024_S256x1024 (by norm_num) p d).trans ?_
  rw [k0_pay1_apply]

/-- The [256, 1024] product against the third weight; the two format changes are the identity. -/
theorem k0_pay4_apply (v0 : Vec Ideal S256x1024 .f32) (v9 : Vec Ideal S1024x1024 .bf16) (p : Fin 256) (d : Fin 1024) :
    k0_pay4 v0 v9 (ix2 p d) = ∑ k : Fin 1024, v0 (ix2 p k) * v9 (ix2 k d) := by
  unfold k0_pay4
  rw [shapeCast_self]
  refine (truncf_apply (φ := .f32) (ψ := .bf16) _ bitsLt_bf16_f32 (ix2 p d)).trans ?_
  exact Cert.LibPlainDot.matmul_zero_apply none (truncf .bf16 v0 bitsLt_bf16_f32) v9 p d

/-! ## The flash kernel -/

/-- A shape cast to the same shape is the identity. -/
theorem k1_pay1_eq (x : FVec Ideal S512x1024 .f32) : k1_pay1 x = x := shapeCast_self x _

theorem k1_pay2_eq (x : FVec Ideal S512x1 .f32) : k1_pay2 x = x := shapeCast_self x _

/-- The last step: the accumulator divided by the normaliser's column. -/
theorem k1_pay3_apply (acc : Vec Ideal S512x1024 .f32) (l : Vec Ideal S512x1 .f32) (r : Fin 512) (d : Fin 1024) :
    k1_pay3 acc l (ix2 r d) = Ideal.div (acc (ix2 r d)) (l (ix2 r 0)) := by
  unfold k1_pay3
  refine (divf_apply _ _ _).trans ?_
  rw [Cert.LibKeepdims.broadcastTo_a1_ab_apply]

/-- The initial running maximum is -∞. -/
theorem k1_pay4_apply (r : Fin 512) (z : Fin 1) : k1_pay4 (F := Ideal) (ix2 r z) = ⊥ := by
  unfold k1_pay4
  rw [shapeCast_self]
  exact ofBits_neg_inf_f32

/-- The initial normaliser is 0. -/
theorem k1_pay5_apply (r : Fin 512) (z : Fin 1) : k1_pay5 (F := Ideal) (ix2 r z) = 0 := by
  unfold k1_pay5
  rw [shapeCast_self]
  exact Ideal.ofBits_zero_f32

/-- The initial accumulator is 0. -/
theorem k1_pay6_apply (r : Fin 512) (d : Fin 1024) : k1_pay6 (F := Ideal) (ix2 r d) = 0 := by
  unfold k1_pay6
  rw [shapeCast_self]
  exact Ideal.ofBits_zero_f32

/-- The scores: row r of the queries against row j of the keys. -/
theorem k1_pay7_apply (q : Vec Ideal S512x1024 .f32) (kk : Vec Ideal S1024x1024 .f32) (r : Fin 512) (j : Fin 1024) :
    k1_pay7 q kk (ix2 r j) = ∑ e : Fin 1024, q (ix2 r e) * kk (ix2 j e) := by
  unfold k1_pay7
  rw [shapeCast_self, shapeCast_self]
  exact Cert.LibDotRhsLast.matmul_zero_apply (some .fp32) q kk r j

/-- The new running maximum: the old one against the row's supremum of the scores. -/
theorem k1_pay8_apply (q : Vec Ideal S512x1024 .f32) (kk : Vec Ideal S1024x1024 .f32) (mo : Vec Ideal S512x1 .f32)
    (r : Fin 512) (z : Fin 1) :
    k1_pay8 q kk mo (ix2 r z) = max (mo (ix2 r z)) (Finset.univ.sup fun j : Fin 1024 => k1_pay7 q kk (ix2 r j)) := by
  unfold k1_pay8
  refine (maximumf_apply _ _ _).trans ?_
  refine congrArg (max (mo (ix2 r z))) ?_
  refine (Cert.LibKeepdims.shapeCast_a_a1_apply _ shapeCasts_S512_S512x1 r z).trans ?_
  refine (Cert.LibRowReduce.multiReduction_max_row (k1_pay7 q kk) 0xFF800000#32 reduces_S512x1024_S512 (.inl rfl) rfl r).trans ?_
  rw [ofBits_neg_inf_f32]
  exact Cert.LibSupBlocks.fold_max_bot_eq_sup _ _

/-- The rescaling factor of the old state. -/
theorem k1_pay9_apply (q : Vec Ideal S512x1024 .f32) (kk : Vec Ideal S1024x1024 .f32) (mo mo' : Vec Ideal S512x1 .f32)
    (r : Fin 512) (z : Fin 1) :
    k1_pay9 q kk mo mo' (ix2 r z) = Ideal.exp (mo' (ix2 r z) - k1_pay8 q kk mo (ix2 r z)) := rfl

/-- The weights of the block's keys. -/
theorem k1_pay10_apply (q : Vec Ideal S512x1024 .f32) (kk : Vec Ideal S1024x1024 .f32) (mo : Vec Ideal S512x1 .f32)
    (r : Fin 512) (j : Fin 1024) :
    k1_pay10 q kk mo (ix2 r j) = Ideal.exp (k1_pay7 q kk (ix2 r j) - k1_pay8 q kk mo (ix2 r 0)) := by
  unfold k1_pay10
  show Ideal.exp (k1_pay7 q kk (ix2 r j)
    - broadcastTo S512x1024 (k1_pay8 q kk mo) broadcasts_S512x1_S512x1024 (ix2 r j)) = _
  rw [Cert.LibKeepdims.broadcastTo_a1_ab_apply]

/-- The new normaliser. -/
theorem k1_pay11_apply (q : Vec Ideal S512x1024 .f32) (kk : Vec Ideal S1024x1024 .f32) (mo mo' lo : Vec Ideal S512x1 .f32)
    (r : Fin 512) (z : Fin 1) :
    k1_pay11 q kk mo mo' lo (ix2 r z)
      = k1_pay9 q kk mo mo' (ix2 r z) * lo (ix2 r z) + ∑ j : Fin 1024, k1_pay10 q kk mo (ix2 r j) := by
  unfold k1_pay11
  rw [shapeCast_self]
  refine (addf_apply _ _ _).trans ?_
  refine congrArg (k1_pay9 q kk mo mo' (ix2 r z) * lo (ix2 r z) + ·) ?_
  refine (Cert.LibKeepdims.shapeCast_a_a1_apply _ shapeCasts_S512_S512x1 r z).trans ?_
  exact Cert.LibRowReduce.multiReduction_add_row (k1_pay10 q kk mo) 0x00000000#32 reduces_S512x1024_S512 (.inl rfl) rfl r

/-- The new accumulator. -/
theorem k1_pay12_apply (q : Vec Ideal S512x1024 .f32) (kk : Vec Ideal S1024x1024 .f32) (mo mo' : Vec Ideal S512x1 .f32)
    (vv : Vec Ideal S1024x1024 .bf16) (ao : Vec Ideal S512x1024 .f32) (r : Fin 512) (d : Fin 1024) :
    k1_pay12 q kk mo mo' vv ao (ix2 r d)
      = k1_pay9 q kk mo mo' (ix2 r 0) * ao (ix2 r d) + ∑ j : Fin 1024, k1_pay10 q kk mo (ix2 r j) * vv (ix2 j d) := by
  unfold k1_pay12
  rw [shapeCast_self]
  refine (addf_apply _ _ _).trans ?_
  refine congrArg₂ (· + ·) ?_ ?_
  · refine (mulf_apply _ _ _).trans ?_
    rw [Cert.LibKeepdims.broadcastTo_a1_ab_apply]
  · exact Cert.LibPlainDot.matmul_zero_apply none (truncf .bf16 (k1_pay10 q kk mo) bitsLt_bf16_f32) vv r d

end Cert.KernelIdeal.PayIdeal
-- ==== Proof.KI.Value0.lean ====
/-
  What the projection region leaves in its three output arrays, as whole-array functions of the contents it finds.

  The region has 32 points. Point t reads rows 256 t … 256 t + 255 of x and the two whole weight arrays, and writes rows
  256 t … 256 t + 255 of three arrays: at (p, d) of the tile, the sum over k of x(256 t + p, k) times the weight at
  (k, d) — the left half of the 2048 columns of the joined weight for the first array, the right half (column 1024 + d)
  for the second, the third weight for the third. A block's element sits in its array at block index × block size + its
  coordinate inside the block; the block index along the rows is t and along the columns 0, decided over the 32 points.
  Every row r lies in the block of point r / 256, and every point writes back, so each array ends as one function of its
  index.
-/
import proofs.«171233_j76312978915618_2_alg».proof.Proof.KI.Region0
import proofs.«171233_j76312978915618_2_alg».proof.Proof.KI.PayIdeal
import Idealize.ShloMosaic.Lib.Pipeline.Value
import Idealize.ShloMosaic.Lib.ValueIdx

noncomputable section

namespace Cert.KernelIdeal.Value0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the six windows, decided over the 32 points: the row tiles move with the point, the whole
    arrays stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A point's number is below 32. -/
theorem t_lt (t : Fin cfg0.N) : t.val < 32 := by
  have h := t.isLt
  have hN : cfg0.N = 32 := N_0
  omega

/-! ## The input blocks -/

/-- Window 0's block at point t, at (p, k): row 256 t + p of the array. -/
theorem iblk0_0_apply (c : Dev nD) (t : Fin cfg0.N) (p : Fin 256) (k : Fin 1024) :
    (iblk0 V c 0 t : Vec Ideal S256x1024 .f32) (ix2 p k)
      = (V c main_arg0 : S8192x1024.Idx → EReal) (ix2 ⟨256 * t.val + p.val, by have := t_lt t; omega⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 256 + 1 * p.val = 256 * t.val + p.val; rw [e0]; omega
  | ⟨1, _⟩ => show win0_0.index t 1 * 1024 + 1 * k.val = k.val; rw [e1]; omega

/-- Window 1 is its whole array at every point. -/
theorem iblk0_1_eq (c : Dev nD) (t : Fin cfg0.N) :
    (iblk0 V c 1 t : Vec Ideal S1024x2048 .f32) = (V c main_v0 : S1024x2048.Idx → EReal) := by
  obtain ⟨-, -, e0, e1, -⟩ := idx_facts t
  funext y
  unfold iblk0
  rw [View.read_apply]
  show V c main_v0 _ = V c main_v0 _
  congr 1
  funext a
  apply Fin.ext
  match a with
  | ⟨0, _⟩ => show win0_1.index t 0 * 1024 + 1 * (y 0).val = (y 0).val; rw [e0]; omega
  | ⟨1, _⟩ => show win0_1.index t 1 * 2048 + 1 * (y 1).val = (y 1).val; rw [e1]; omega

/-- Window 2 is its whole array at every point. -/
theorem iblk0_2_eq (c : Dev nD) (t : Fin cfg0.N) :
    (iblk0 V c 2 t : Vec Ideal S1024x1024 .bf16) = (V c main_v1 : S1024x1024.Idx → EReal) := by
  obtain ⟨-, -, -, -, e0, e1, -⟩ := idx_facts t
  funext y
  unfold iblk0
  rw [View.read_apply]
  show V c main_v1 _ = V c main_v1 _
  congr 1
  funext a
  apply Fin.ext
  match a with
  | ⟨0, _⟩ => show win0_2.index t 0 * 1024 + 1 * (y 0).val = (y 0).val; rw [e0]; omega
  | ⟨1, _⟩ => show win0_2.index t 1 * 1024 + 1 * (y 1).val = (y 1).val; rw [e1]; omega

/-! ## The three whole-array functions -/

/-- x times the left half of the joined weight, at (p, d). -/
def projL (x : S8192x1024.Idx → EReal) (w : S1024x2048.Idx → EReal) (p : Fin 8192) (d : Fin 1024) : EReal :=
  ∑ k : Fin 1024, x (ix2 p k) * w (ix2 k ⟨d.val, by omega⟩)

/-- x times the right half of the joined weight, at (p, d). -/
def projR (x : S8192x1024.Idx → EReal) (w : S1024x2048.Idx → EReal) (p : Fin 8192) (d : Fin 1024) : EReal :=
  ∑ k : Fin 1024, x (ix2 p k) * w (ix2 k ⟨1024 + d.val, by omega⟩)

/-- x times the third weight, at (p, d). -/
def projV (x : S8192x1024.Idx → EReal) (w : S1024x1024.Idx → EReal) (p : Fin 8192) (d : Fin 1024) : EReal :=
  ∑ k : Fin 1024, x (ix2 p k) * w (ix2 k d)

/-! ## Window 3: the queries -/

/-- Block t of window 3, of any array G, at (p, d): G at row 256 t + p. -/
theorem read_blk3 (G : S8192x1024.Idx → EReal) (t : Fin cfg0.N) (p : Fin 256) (d : Fin 1024) :
    ((cfg0.win 3).blk t).view.read (Elt Ideal) G (ix2 p d) = G (ix2 ⟨256 * t.val + p.val, by have := t_lt t; omega⟩ d) := by
  obtain ⟨-, -, -, -, -, -, e0, e1, -⟩ := idx_facts t
  rw [View.read_apply]
  show G _ = G _
  congr 1
  funext a
  apply Fin.ext
  match a with
  | ⟨0, _⟩ => show win0_3.index t 0 * 256 + 1 * p.val = 256 * t.val + p.val; rw [e0]; omega
  | ⟨1, _⟩ => show win0_3.index t 1 * 1024 + 1 * d.val = d.val; rw [e1]; omega

/-- What point t writes back through window 3 is block t of the whole-array function. -/
theorem flushed3_eq (c : Dev nD) (t : Fin cfg0.N) :
    (dat0 V c).flushed 3 t = ((cfg0.win 3).blk t).view.read (Elt Ideal)
      (fun j : S8192x1024.Idx => projL (V c main_arg0) (V c main_v0) (j 0) (j 1)) := by
  show (cfg0.win 3).cut (grid0.coords t) ((dat0 V c).after 3 t) = _
  rw [after0_3]
  unfold out0_3
  rw [View.canon_unit_zero hz]
  simp only [View.ld_unit_zero (S := S256x1024) hz, View.ld_unit_zero (S := S1024x2048) hz]
  funext y
  obtain ⟨p, d, rfl⟩ : ∃ (p : Fin 256) (d : Fin 1024), y = ix2 p d := ⟨y 0, y 1, eq_ix2 y⟩
  refine Eq.trans ?_ (read_blk3 _ t p d).symm
  show k0_pay2 (iblk0 V c 0 t) (iblk0 V c 1 t) (ix2 p d) = projL (V c main_arg0) (V c main_v0) ⟨256 * t.val + p.val, _⟩ d
  refine (PayIdeal.k0_pay2_apply _ _ p d).trans ?_
  unfold projL
  refine Finset.sum_congr rfl fun k _ => ?_
  rw [iblk0_0_apply V c t p k, iblk0_1_eq V c t]

/-- An index of the array is in point t's block of window 3 iff each coordinate is in the block's range. -/
theorem mem_blk3 (t : Fin cfg0.N) (i : S8192x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v2_0).slice (win0_3.rect t)).set ↔ _
  rw [View.set_slice_whole, Rect.mem_set_unit]
  exact Iff.rfl

/-- Row r of the array is in the block of point r / 256, which writes back. -/
theorem cover3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, e0, e1, -⟩ := idx_facts ⟨(i 0).val / 256, hlt⟩
  refine ⟨⟨(i 0).val / 256, hlt⟩, flush0_3 _, ?_⟩
  rw [mem_blk3]
  intro a
  match a with
  | ⟨0, _⟩ =>
    show win0_3.index ⟨(i 0).val / 256, hlt⟩ 0 * 256 ≤ (i 0).val ∧ (i 0).val < win0_3.index ⟨(i 0).val / 256, hlt⟩ 0 * 256 + 256
    rw [e0]; show (i 0).val / 256 * 256 ≤ (i 0).val ∧ (i 0).val < (i 0).val / 256 * 256 + 256; omega
  | ⟨1, _⟩ =>
    show win0_3.index ⟨(i 0).val / 256, hlt⟩ 1 * 1024 ≤ (i 1).val ∧ (i 1).val < win0_3.index ⟨(i 0).val / 256, hlt⟩ 1 * 1024 + 1024
    rw [e1]; omega

/-- The first output array after the region. -/
theorem arr3 (c : Dev nD) :
    (dat0 V c).arrAt 3 cfg0.N = fun j : S8192x1024.Idx => projL (V c main_arg0) (V c main_v0) (j 0) (j 1) :=
  (dat0 V c).arrAt_eq_of_cover 3 _ (fun t _ => flushed3_eq V c t) cover3

/-! ## Window 4: the keys -/

/-- Block t of window 4, of any array G, at (p, d): G at row 256 t + p. -/
theorem read_blk4 (G : S8192x1024.Idx → EReal) (t : Fin cfg0.N) (p : Fin 256) (d : Fin 1024) :
    ((cfg0.win 4).blk t).view.read (Elt Ideal) G (ix2 p d) = G (ix2 ⟨256 * t.val + p.val, by have := t_lt t; omega⟩ d) := by
  obtain ⟨-, -, -, -, -, -, -, -, e0, e1, -⟩ := idx_facts t
  rw [View.read_apply]
  show G _ = G _
  congr 1
  funext a
  apply Fin.ext
  match a with
  | ⟨0, _⟩ => show win0_4.index t 0 * 256 + 1 * p.val = 256 * t.val + p.val; rw [e0]; omega
  | ⟨1, _⟩ => show win0_4.index t 1 * 1024 + 1 * d.val = d.val; rw [e1]; omega

/-- What point t writes back through window 4 is block t of the whole-array function. -/
theorem flushed4_eq (c : Dev nD) (t : Fin cfg0.N) :
    (dat0 V c).flushed 4 t = ((cfg0.win 4).blk t).view.read (Elt Ideal)
      (fun j : S8192x1024.Idx => projR (V c main_arg0) (V c main_v0) (j 0) (j 1)) := by
  show (cfg0.win 4).cut (grid0.coords t) ((dat0 V c).after 4 t) = _
  rw [after0_4]
  unfold out0_4
  rw [View.canon_unit_zero hz]
  simp only [View.ld_unit_zero (S := S256x1024) hz, View.ld_unit_zero (S := S1024x2048) hz]
  funext y
  obtain ⟨p, d, rfl⟩ : ∃ (p : Fin 256) (d : Fin 1024), y = ix2 p d := ⟨y 0, y 1, eq_ix2 y⟩
  refine Eq.trans ?_ (read_blk4 _ t p d).symm
  show k0_pay3 (iblk0 V c 0 t) (iblk0 V c 1 t) (ix2 p d) = projR (V c main_arg0) (V c main_v0) ⟨256 * t.val + p.val, _⟩ d
  refine (PayIdeal.k0_pay3_apply _ _ p d).trans ?_
  unfold projR
  refine Finset.sum_congr rfl fun k _ => ?_
  rw [iblk0_0_apply V c t p k, iblk0_1_eq V c t]

/-- An index of the array is in point t's block of window 4 iff each coordinate is in the block's range. -/
theorem mem_blk4 (t : Fin cfg0.N) (i : S8192x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v2_1).slice (win0_4.rect t)).set ↔ _
  rw [View.set_slice_whole, Rect.mem_set_unit]
  exact Iff.rfl

/-- Row r of the array is in the block of point r / 256, which writes back. -/
theorem cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, -, -, e0, e1, -⟩ := idx_facts ⟨(i 0).val / 256, hlt⟩
  refine ⟨⟨(i 0).val / 256, hlt⟩, flush0_4 _, ?_⟩
  rw [mem_blk4]
  intro a
  match a with
  | ⟨0, _⟩ =>
    show win0_4.index ⟨(i 0).val / 256, hlt⟩ 0 * 256 ≤ (i 0).val ∧ (i 0).val < win0_4.index ⟨(i 0).val / 256, hlt⟩ 0 * 256 + 256
    rw [e0]; show (i 0).val / 256 * 256 ≤ (i 0).val ∧ (i 0).val < (i 0).val / 256 * 256 + 256; omega
  | ⟨1, _⟩ =>
    show win0_4.index ⟨(i 0).val / 256, hlt⟩ 1 * 1024 ≤ (i 1).val ∧ (i 1).val < win0_4.index ⟨(i 0).val / 256, hlt⟩ 1 * 1024 + 1024
    rw [e1]; omega

/-- The second output array after the region. -/
theorem arr4 (c : Dev nD) :
    (dat0 V c).arrAt 4 cfg0.N = fun j : S8192x1024.Idx => projR (V c main_arg0) (V c main_v0) (j 0) (j 1) :=
  (dat0 V c).arrAt_eq_of_cover 4 _ (fun t _ => flushed4_eq V c t) cover4

/-! ## Window 5: the values -/

/-- Block t of window 5, of any array G, at (p, d): G at row 256 t + p. -/
theorem read_blk5 (G : S8192x1024.Idx → EReal) (t : Fin cfg0.N) (p : Fin 256) (d : Fin 1024) :
    ((cfg0.win 5).blk t).view.read (Elt Ideal) G (ix2 p d) = G (ix2 ⟨256 * t.val + p.val, by have := t_lt t; omega⟩ d) := by
  obtain ⟨-, -, -, -, -, -, -, -, -, -, e0, e1⟩ := idx_facts t
  rw [View.read_apply]
  show G _ = G _
  congr 1
  funext a
  apply Fin.ext
  match a with
  | ⟨0, _⟩ => show win0_5.index t 0 * 256 + 1 * p.val = 256 * t.val + p.val; rw [e0]; omega
  | ⟨1, _⟩ => show win0_5.index t 1 * 1024 + 1 * d.val = d.val; rw [e1]; omega

/-- What point t writes back through window 5 is block t of the whole-array function. -/
theorem flushed5_eq (c : Dev nD) (t : Fin cfg0.N) :
    (dat0 V c).flushed 5 t = ((cfg0.win 5).blk t).view.read (Elt Ideal)
      (fun j : S8192x1024.Idx => projV (V c main_arg0) (V c main_v1) (j 0) (j 1)) := by
  show (cfg0.win 5).cut (grid0.coords t) ((dat0 V c).after 5 t) = _
  rw [after0_5]
  unfold out0_5
  rw [View.canon_unit_zero hz]
  simp only [View.ld_unit_zero (S := S256x1024) hz, View.ld_unit_zero (S := S1024x1024) hz]
  funext y
  obtain ⟨p, d, rfl⟩ : ∃ (p : Fin 256) (d : Fin 1024), y = ix2 p d := ⟨y 0, y 1, eq_ix2 y⟩
  refine Eq.trans ?_ (read_blk5 _ t p d).symm
  show k0_pay4 (iblk0 V c 0 t) (iblk0 V c 2 t) (ix2 p d) = projV (V c main_arg0) (V c main_v1) ⟨256 * t.val + p.val, _⟩ d
  refine (PayIdeal.k0_pay4_apply _ _ p d).trans ?_
  unfold projV
  refine Finset.sum_congr rfl fun k _ => ?_
  rw [iblk0_0_apply V c t p k, iblk0_2_eq V c t]

/-- An index of the array is in point t's block of window 5 iff each coordinate is in the block's range. -/
theorem mem_blk5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v2_2).slice (win0_5.rect t)).set ↔ _
  rw [View.set_slice_whole, Rect.mem_set_unit]
  exact Iff.rfl

/-- Row r of the array is in the block of point r / 256, which writes back. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, -, -, -, -, e0, e1⟩ := idx_facts ⟨(i 0).val / 256, hlt⟩
  refine ⟨⟨(i 0).val / 256, hlt⟩, flush0_5 _, ?_⟩
  rw [mem_blk5]
  intro a
  match a with
  | ⟨0, _⟩ =>
    show win0_5.index ⟨(i 0).val / 256, hlt⟩ 0 * 256 ≤ (i 0).val ∧ (i 0).val < win0_5.index ⟨(i 0).val / 256, hlt⟩ 0 * 256 + 256
    rw [e0]; show (i 0).val / 256 * 256 ≤ (i 0).val ∧ (i 0).val < (i 0).val / 256 * 256 + 256; omega
  | ⟨1, _⟩ =>
    show win0_5.index ⟨(i 0).val / 256, hlt⟩ 1 * 1024 ≤ (i 1).val ∧ (i 1).val < win0_5.index ⟨(i 0).val / 256, hlt⟩ 1 * 1024 + 1024
    rw [e1]; omega

/-- The third output array after the region. -/
theorem arr5 (c : Dev nD) :
    (dat0 V c).arrAt 5 cfg0.N = fun j : S8192x1024.Idx => projV (V c main_arg0) (V c main_v1) (j 0) (j 1) :=
  (dat0 V c).arrAt_eq_of_cover 5 _ (fun t _ => flushed5_eq V c t) cover5

end Cert.KernelIdeal.Value0

end
-- ==== Proof.LibJoinCols.lean ====
/-
  Two matrices with the same rows joined side by side, read at an entry.

  The concatenation along the columns of u : [a, b] and v : [a, c] into [a, n] (n = b + c) has, at (p, k) with
  k < b, the value u(p, k), and at (p, b + k) with k < c the value v(p, k).
-/
import Idealize.ShloMosaic.Lib.Pipeline.Value
import Idealize.ShloMosaic.Lib.ValueIdx

namespace Cert.LibJoinCols

open Idealize.ShloMosaic Idealize.ShloMosaic.ValueIdx

variable {α : Type} {a b c n : ℕ}

/-- A column of the left piece. -/
theorem left_apply (u : (⟨2, ![a, b]⟩ : Shape).Idx → α) (v : (⟨2, ![a, c]⟩ : Shape).Idx → α)
    (h : Shape.Concatenates [⟨2, ![a, b]⟩, ⟨2, ![a, c]⟩] ⟨2, ![a, n]⟩ 1) (p : Fin a) (k : Fin b) (hk : k.val < n) :
    concatenate ⟨2, ![a, n]⟩ 1 [⟨⟨2, ![a, b]⟩, u⟩, ⟨⟨2, ![a, c]⟩, v⟩] h (ix2 p ⟨k.val, hk⟩) = u (ix2 p k) :=
  concatenate_pair_apply_left 1 u v h (ix2 p ⟨k.val, hk⟩) rfl (ix2 p k) fun d => match d with
    | ⟨0, _⟩ => rfl
    | ⟨1, _⟩ => rfl

/-- A column of the right piece. -/
theorem right_apply (u : (⟨2, ![a, b]⟩ : Shape).Idx → α) (v : (⟨2, ![a, c]⟩ : Shape).Idx → α)
    (h : Shape.Concatenates [⟨2, ![a, b]⟩, ⟨2, ![a, c]⟩] ⟨2, ![a, n]⟩ 1) (p : Fin a) (k : Fin c) (hk : b + k.val < n) :
    concatenate ⟨2, ![a, n]⟩ 1 [⟨⟨2, ![a, b]⟩, u⟩, ⟨⟨2, ![a, c]⟩, v⟩] h (ix2 p ⟨b + k.val, hk⟩) = v (ix2 p k) :=
  concatenate_pair_apply_right 1 u v h (ix2 p ⟨b + k.val, hk⟩) rfl rfl (ix2 p k)
    (fun d hd => match d, hd with
      | ⟨0, _⟩, _ => rfl
      | ⟨1, _⟩, hd => absurd rfl hd)
    (Nat.add_comm k.val b)

end Cert.LibJoinCols
-- ==== Proof.Spec.lean ====
/-
  The function both programs compute, stated once over the argument arrays, index by index, on the extended reals.

  With x : [8192,1024] and three weights w : [1024,1024]:
    proj x w (p,d)   = ∑ k, x(p,k) · w(k,d)                       (a projection: queries, keys, values)
    score (i,j)      = ∑ e, q(i,e) · k(j,e)                       (query i against key j, no scaling)
    rowMax i         = sup over j of score (i,j)                   (the row's largest score)
    rowSum i         = ∑ j, exp (score (i,j) − rowMax i)           (the softmax denominator)
    attn (i,d)       = ∑ j, (exp (score (i,j) − rowMax i) / rowSum i) · v(j,d)
  This is softmax(q kᵀ) v with the row maximum subtracted before the exponential, as the reference spells it.
-/
import Idealize.ShloMosaic.PureOps.Ideal
import Idealize.ShloMosaic.Lib.ValueIdx

noncomputable section

namespace Cert.Spec

open Idealize.ShloMosaic Idealize.ShloMosaic.ValueIdx

/-- A matrix of extended reals with literal extents, indexed as the programs index their arrays. -/
abbrev Mat (r c : ℕ) : Type := (⟨2, ![r, c]⟩ : Shape).Idx → EReal

/-- Row `p`, column `d` of the product of `x : [8192,1024]` with `w : [1024,1024]`. -/
def proj (x : Mat 8192 1024) (w : Mat 1024 1024) (p : Fin 8192) (d : Fin 1024) : EReal :=
  ∑ k : Fin 1024, x (ix2 p k) * w (ix2 k d)

/-- The score of query row `i` against key row `j`: the inner product of the two projected rows. -/
def score (x : Mat 8192 1024) (wq wk : Mat 1024 1024) (i j : Fin 8192) : EReal :=
  ∑ e : Fin 1024, proj x wq i e * proj x wk j e

/-- The largest score of row `i`. -/
def rowMax (x : Mat 8192 1024) (wq wk : Mat 1024 1024) (i : Fin 8192) : EReal :=
  Finset.univ.sup fun j : Fin 8192 => score x wq wk i j

/-- The softmax denominator of row `i`. -/
def rowSum (x : Mat 8192 1024) (wq wk : Mat 1024 1024) (i : Fin 8192) : EReal :=
  ∑ j : Fin 8192, Ideal.exp (score x wq wk i j - rowMax x wq wk i)

/-- Row `i`, column `d` of softmax(q kᵀ) v. -/
def attnAt (x : Mat 8192 1024) (wq wk wv : Mat 1024 1024) (i : Fin 8192) (d : Fin 1024) : EReal :=
  ∑ j : Fin 8192, Ideal.div (Ideal.exp (score x wq wk i j - rowMax x wq wk i)) (rowSum x wq wk i) * proj x wv j d

/-- The whole result array. -/
def attn (x : Mat 8192 1024) (wq wk wv : Mat 1024 1024) : Mat 8192 1024 :=
  fun idx => attnAt x wq wk wv (idx 0) (idx 1)

theorem attn_ix2 (x : Mat 8192 1024) (wq wk wv : Mat 1024 1024) (i : Fin 8192) (d : Fin 1024) :
    attn x wq wk wv (ix2 i d) = attnAt x wq wk wv i d := rfl

end Cert.Spec

end
-- ==== Proof.KI.Entry0.lean ====
/-
  What the host operations before the projection region leave, and with it the region's three outputs as functions of
  the launch arguments.

  Before the first region the host joins the two weights wq, wk : [1024, 1024] side by side into [1024, 2048] and changes
  the format of wv : [1024, 1024]; x is untouched. Over the extended reals a format change is the identity, and the joined
  array at column d < 1024 is wq at column d, at column 1024 + d it is wk at column d. So the left half of x · [wq | wk]
  is x · wq, the right half is x · wk, and the region's three output arrays are the three projections of the
  specification.
-/
import proofs.«171233_j76312978915618_2_alg».proof.Proof.KI.Value0
import proofs.«171233_j76312978915618_2_alg».proof.Proof.LibJoinCols
import proofs.«171233_j76312978915618_2_alg».proof.Proof.Spec
import Idealize.ShloMosaic.Lib.StableHlo.Run

noncomputable section

namespace Cert.KernelIdeal.Entry0

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The buffer contents after the host operations that precede the projection region, from the launch memory. -/
abbrev E1 (c : Dev nD) : Valuation τ sig (Elt Ideal) :=
  StableHlo.after (hostOps0 (F := Ideal)) (fun b => m ((c : Dev nD), b))

/-- The same, as the contents a region finds: one buffer per reference. -/
abbrev VE : (c : Dev nD) → (b : Ref sig .tc) → Buf (Elt Ideal) ((c : Thread nD τ).loc b) := fun c b => E1 m c b

/-! ## Each buffer after the host operations -/

/-- x is as launched. -/
theorem entry_arg0 (c : Dev nD) :
    E1 m c (Proc.devRef .tc main_arg0) = m ((c : Thread nD τ).loc main_arg0) := by
  show StableHlo.after (hostOps0 (F := Ideal)) (fun b => m ((c : Dev nD), b)) (Proc.devRef .tc main_arg0) = _
  after_results

/-- The joined weight is the two weights side by side. -/
theorem entry_v0 (c : Dev nD) :
    (E1 m c (Proc.devRef .tc main_v0) : S1024x2048.Idx → EReal)
      = concatenate S1024x2048 1 [⟨S1024x1024, (m ((c : Thread nD τ).loc main_arg1) : S1024x1024.Idx → EReal)⟩,
          ⟨S1024x1024, (m ((c : Thread nD τ).loc main_arg2) : S1024x1024.Idx → EReal)⟩] concatenates_S1024x1024_S1024x1024_S1024x2048_d1 := by
  show StableHlo.after (hostOps0 (F := Ideal)) (fun b => m ((c : Dev nD), b)) (Proc.devRef .tc main_v0) = _
  after_results

/-- The third weight after its format change. -/
theorem entry_v1 (c : Dev nD) :
    (E1 m c (Proc.devRef .tc main_v1) : S1024x1024.Idx → EReal)
      = truncf (F := Ideal) .bf16 (m ((c : Thread nD τ).loc main_arg3) : S1024x1024.Idx → EReal) bitsLt_bf16_f32 := by
  show StableHlo.after (hostOps0 (F := Ideal)) (fun b => m ((c : Dev nD), b)) (Proc.devRef .tc main_v1) = _
  after_results

/-! ## The same, entry by entry -/

/-- The joined weight at column d < 1024 is the first weight at column d. -/
theorem entry_v0_left (c : Dev nD) (k d : Fin 1024) :
    (E1 m c (Proc.devRef .tc main_v0) : S1024x2048.Idx → EReal) (ix2 k ⟨d.val, by omega⟩)
      = (m ((c : Thread nD τ).loc main_arg1) : S1024x1024.Idx → EReal) (ix2 k d) :=
  (congrFun (entry_v0 m c) _).trans
    (Cert.LibJoinCols.left_apply _ _ concatenates_S1024x1024_S1024x1024_S1024x2048_d1 k d (by omega))

/-- The joined weight at column 1024 + d is the second weight at column d. -/
theorem entry_v0_right (c : Dev nD) (k d : Fin 1024) :
    (E1 m c (Proc.devRef .tc main_v0) : S1024x2048.Idx → EReal) (ix2 k ⟨1024 + d.val, by omega⟩)
      = (m ((c : Thread nD τ).loc main_arg2) : S1024x1024.Idx → EReal) (ix2 k d) :=
  (congrFun (entry_v0 m c) _).trans
    (Cert.LibJoinCols.right_apply _ _ concatenates_S1024x1024_S1024x1024_S1024x2048_d1 k d (by omega))

/-- Over the extended reals the format change is the identity: the third weight entry by entry. -/
theorem entry_v1_apply (c : Dev nD) (y : S1024x1024.Idx) :
    (E1 m c (Proc.devRef .tc main_v1) : S1024x1024.Idx → EReal) y
      = (m ((c : Thread nD τ).loc main_arg3) : S1024x1024.Idx → EReal) y :=
  congrFun (entry_v1 m c) y

/-! ## The three whole-array functions at these contents: the specification's projections -/

theorem projL_entry (x : S8192x1024.Idx → EReal) (c : Dev nD) (p : Fin 8192) (d : Fin 1024) :
    Value0.projL x (E1 m c (Proc.devRef .tc main_v0)) p d
      = Cert.Spec.proj x (m ((c : Thread nD τ).loc main_arg1)) p d := by
  unfold Value0.projL Cert.Spec.proj
  refine Finset.sum_congr rfl fun k _ => ?_
  rw [entry_v0_left m c k d]

theorem projR_entry (x : S8192x1024.Idx → EReal) (c : Dev nD) (p : Fin 8192) (d : Fin 1024) :
    Value0.projR x (E1 m c (Proc.devRef .tc main_v0)) p d
      = Cert.Spec.proj x (m ((c : Thread nD τ).loc main_arg2)) p d := by
  unfold Value0.projR Cert.Spec.proj
  refine Finset.sum_congr rfl fun k _ => ?_
  rw [entry_v0_right m c k d]

theorem projV_entry (x : S8192x1024.Idx → EReal) (c : Dev nD) (p : Fin 8192) (d : Fin 1024) :
    Value0.projV x (E1 m c (Proc.devRef .tc main_v1)) p d
      = Cert.Spec.proj x (m ((c : Thread nD τ).loc main_arg3)) p d := by
  unfold Value0.projV Cert.Spec.proj
  refine Finset.sum_congr rfl fun k _ => ?_
  rw [entry_v1_apply m c (ix2 k d)]

/-! ## The region's three output arrays, from the launch arguments -/

/-- The first output array: the queries x · wq. -/
theorem arr3_entry (c : Dev nD) :
    (dat0 (VE m) c).arrAt 3 cfg0.N = fun j : S8192x1024.Idx =>
      Cert.Spec.proj (m ((c : Thread nD τ).loc main_arg0)) (m ((c : Thread nD τ).loc main_arg1)) (j 0) (j 1) := by
  refine (Value0.arr3 (VE m) c).trans ?_
  funext j
  show Value0.projL (E1 m c (Proc.devRef .tc main_arg0)) (E1 m c (Proc.devRef .tc main_v0)) (j 0) (j 1) = _
  rw [entry_arg0 m c]
  exact projL_entry m _ c (j 0) (j 1)

/-- The second output array: the keys x · wk. -/
theorem arr4_entry (c : Dev nD) :
    (dat0 (VE m) c).arrAt 4 cfg0.N = fun j : S8192x1024.Idx =>
      Cert.Spec.proj (m ((c : Thread nD τ).loc main_arg0)) (m ((c : Thread nD τ).loc main_arg2)) (j 0) (j 1) := by
  refine (Value0.arr4 (VE m) c).trans ?_
  funext j
  show Value0.projR (E1 m c (Proc.devRef .tc main_arg0)) (E1 m c (Proc.devRef .tc main_v0)) (j 0) (j 1) = _
  rw [entry_arg0 m c]
  exact projR_entry m _ c (j 0) (j 1)

/-- The third output array: the values x · wv. -/
theorem arr5_entry (c : Dev nD) :
    (dat0 (VE m) c).arrAt 5 cfg0.N = fun j : S8192x1024.Idx =>
      Cert.Spec.proj (m ((c : Thread nD τ).loc main_arg0)) (m ((c : Thread nD τ).loc main_arg3)) (j 0) (j 1) := by
  refine (Value0.arr5 (VE m) c).trans ?_
  funext j
  show Value0.projV (E1 m c (Proc.devRef .tc main_arg0)) (E1 m c (Proc.devRef .tc main_v1)) (j 0) (j 1) = _
  rw [entry_arg0 m c]
  exact projV_entry m _ c (j 0) (j 1)

end Cert.KernelIdeal.Entry0

end
-- ==== Proof.KI.Pieces1.lean ====
/-
  The attention body's found pieces, read back as the flash step's payloads.

  At each point of the attention region the body leaves, in each of the three scratch buffers (running maximum,
  running denominator, running numerator) and — at a last key tile — in the output tile, a list of whole-buffer
  stores, last first. What a buffer then holds is the payload of its last store, and the loads that payload is
  built from read whole buffers: the point's query, key and value tiles, and the scratch contents the tile before
  left (at a first key tile: the reset values -∞, 0, 0 just stored). So, with q, kk, vv the point's tiles and
  (m, l, a) the scratch contents found,
      new maximum      = max-step (q, kk, m)
      new denominator  = rescaled l plus the row sums of the new weights
      new numerator    = rescaled a plus the new weights times vv
  and at a last key tile the output tile is the new numerator divided by the new denominator's column.
-/
import proofs.«171233_j76312978915618_2_alg».proof.Proof.KI.Region1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a whole-buffer rectangle. -/
theorem hz2 : (![0, 0] : Fin 2 → Nat) = fun _ => 0 := funext fun a => by fin_cases a <;> rfl

/-! ## A first key tile -/

theorem canonA_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .f32) (x1 : Vec F S1024x1024 .f32) (x2 : Vec F S1024x1024 .bf16) :
    View.canon (kernelRun1_A c i arg2 harg2 arg3 harg3 arg4 harg4 arg5 harg5 arg6 harg6 arg7 harg7 arg8 harg8 hc0 hc1 x0 x1 x2).2.1 = k1_pay2 (k1_pay8 x0 x1 k1_pay4) := by
  unfold kernelRun1_A
  dsimp only
  rw [View.canon_cons_unit_zero (S := S512x1) hz2]
  sl_unfold_words
  rw [View.readCov_unit_zero (S := S512x1) _ hz2]
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

theorem canonA_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .f32) (x1 : Vec F S1024x1024 .f32) (x2 : Vec F S1024x1024 .bf16) :
    View.canon (kernelRun1_A c i arg2 harg2 arg3 harg3 arg4 harg4 arg5 harg5 arg6 harg6 arg7 harg7 arg8 harg8 hc0 hc1 x0 x1 x2).2.2.1 = k1_pay11 x0 x1 k1_pay4 k1_pay4 k1_pay5 := by
  unfold kernelRun1_A
  dsimp only
  rw [View.canon_cons_unit_zero (S := S512x1) hz2]
  sl_unfold_words
  rw [View.readCov_unit_zero (S := S512x1) _ hz2, View.readCov_unit_zero (S := S512x1) _ hz2]
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

theorem canonA_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 : Vec F S512x1024 .f32) (x1 : Vec F S1024x1024 .f32) (x2 : Vec F S1024x1024 .bf16) :
    View.canon (kernelRun1_A c i arg2 harg2 arg3 harg3 arg4 harg4 arg5 harg5 arg6 harg6 arg7 harg7 arg8 harg8 hc0 hc1 x0 x1 x2).2.2.2.1 = k1_pay1 (k1_pay12 x0 x1 k1_pay4 k1_pay4 x2 k1_pay6) := by
  unfold kernelRun1_A
  dsimp only
  rw [View.canon_cons_unit_zero (S := S512x1024) hz2]
  sl_unfold_words
  rw [View.readCov_unit_zero (S := S512x1) _ hz2, View.readCov_unit_zero (S := S512x1024) _ hz2]
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

/-! ## A middle key tile -/

theorem canonB_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .f32) (x1 : Vec F S1024x1024 .f32) (x2 : Vec F S1024x1024 .bf16) (xs0 : Vec F S512x1 .f32) (xs1 : Vec F S512x1 .f32) (xs2 : Vec F S512x1024 .f32) :
    View.canon (kernelRun1_B c i arg2 harg2 arg3 harg3 arg4 harg4 arg5 harg5 arg6 harg6 arg7 harg7 arg8 harg8 hc0 hc1 x0 x1 x2 xs0 xs1 xs2).2.1 = k1_pay2 (k1_pay8 x0 x1 xs0) := by
  unfold kernelRun1_B
  dsimp only
  rw [View.canon_cons_unit_zero (S := S512x1) hz2]
  try sl_unfold_words
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

theorem canonB_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .f32) (x1 : Vec F S1024x1024 .f32) (x2 : Vec F S1024x1024 .bf16) (xs0 : Vec F S512x1 .f32) (xs1 : Vec F S512x1 .f32) (xs2 : Vec F S512x1024 .f32) :
    View.canon (kernelRun1_B c i arg2 harg2 arg3 harg3 arg4 harg4 arg5 harg5 arg6 harg6 arg7 harg7 arg8 harg8 hc0 hc1 x0 x1 x2 xs0 xs1 xs2).2.2.1 = k1_pay11 x0 x1 xs0 xs0 xs1 := by
  unfold kernelRun1_B
  dsimp only
  rw [View.canon_cons_unit_zero (S := S512x1) hz2]
  try sl_unfold_words
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

theorem canonB_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 : Vec F S512x1024 .f32) (x1 : Vec F S1024x1024 .f32) (x2 : Vec F S1024x1024 .bf16) (xs0 : Vec F S512x1 .f32) (xs1 : Vec F S512x1 .f32) (xs2 : Vec F S512x1024 .f32) :
    View.canon (kernelRun1_B c i arg2 harg2 arg3 harg3 arg4 harg4 arg5 harg5 arg6 harg6 arg7 harg7 arg8 harg8 hc0 hc1 x0 x1 x2 xs0 xs1 xs2).2.2.2.1 = k1_pay1 (k1_pay12 x0 x1 xs0 xs0 x2 xs2) := by
  unfold kernelRun1_B
  dsimp only
  rw [View.canon_cons_unit_zero (S := S512x1024) hz2]
  try sl_unfold_words
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

/-! ## A last key tile -/

theorem canonC_0 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .f32) (x1 : Vec F S1024x1024 .f32) (x2 : Vec F S1024x1024 .bf16) (xs0 : Vec F S512x1 .f32) (xs1 : Vec F S512x1 .f32) (xs2 : Vec F S512x1024 .f32) :
    View.canon (kernelRun1_C c i arg2 harg2 arg3 harg3 arg4 harg4 arg5 harg5 arg6 harg6 arg7 harg7 arg8 harg8 hc0 hc1 x0 x1 x2 xs0 xs1 xs2).2.1 = k1_pay2 (k1_pay8 x0 x1 xs0) := by
  unfold kernelRun1_C
  dsimp only
  rw [View.canon_cons_unit_zero (S := S512x1) hz2]
  try sl_unfold_words
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

theorem canonC_1 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .f32) (x1 : Vec F S1024x1024 .f32) (x2 : Vec F S1024x1024 .bf16) (xs0 : Vec F S512x1 .f32) (xs1 : Vec F S512x1 .f32) (xs2 : Vec F S512x1024 .f32) :
    View.canon (kernelRun1_C c i arg2 harg2 arg3 harg3 arg4 harg4 arg5 harg5 arg6 harg6 arg7 harg7 arg8 harg8 hc0 hc1 x0 x1 x2 xs0 xs1 xs2).2.2.1 = k1_pay11 x0 x1 xs0 xs0 xs1 := by
  unfold kernelRun1_C
  dsimp only
  sl_unfold_words
  rw [View.canon_cons_unit_zero (S := S512x1) hz2]
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

theorem canonC_2 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .f32) (x1 : Vec F S1024x1024 .f32) (x2 : Vec F S1024x1024 .bf16) (xs0 : Vec F S512x1 .f32) (xs1 : Vec F S512x1 .f32) (xs2 : Vec F S512x1024 .f32) :
    View.canon (kernelRun1_C c i arg2 harg2 arg3 harg3 arg4 harg4 arg5 harg5 arg6 harg6 arg7 harg7 arg8 harg8 hc0 hc1 x0 x1 x2 xs0 xs1 xs2).2.2.2.1 = k1_pay1 (k1_pay12 x0 x1 xs0 xs0 x2 xs2) := by
  unfold kernelRun1_C
  dsimp only
  sl_unfold_words
  rw [View.canon_cons_unit_zero (S := S512x1024) hz2]
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

theorem canonC_3 (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 : Vec F S512x1024 .f32) (x1 : Vec F S1024x1024 .f32) (x2 : Vec F S1024x1024 .bf16) (xs0 : Vec F S512x1 .f32) (xs1 : Vec F S512x1 .f32) (xs2 : Vec F S512x1024 .f32) :
    View.canon (kernelRun1_C c i arg2 harg2 arg3 harg3 arg4 harg4 arg5 harg5 arg6 harg6 arg7 harg7 arg8 harg8 hc0 hc1 x0 x1 x2 xs0 xs1 xs2).1
      = k1_pay3 (k1_pay1 (k1_pay12 x0 x1 xs0 xs0 x2 xs2)) (k1_pay11 x0 x1 xs0 xs0 xs1) := by
  unfold kernelRun1_C
  dsimp only
  rw [View.canon_cons_unit_zero (S := S512x1024) hz2]
  sl_unfold_words
  rw [View.readCov_unit_zero (S := S512x1024) _ hz2, View.readCov_unit_zero (S := S512x1) _ hz2]
  simp only [View.readAt_eq_ld, harg2.read_unread, harg3.read_unread, harg4.read_unread, harg6.read_unread, harg7.read_unread, harg8.read_unread, View.ld_unit_zero (S := S512x1024) hz2, View.ld_unit_zero (S := S1024x1024) hz2, View.ld_unit_zero (S := S512x1) hz2]

/-! ## The region's state after a point, as payloads of the point's tiles -/

section State
variable (V : (c : Dev nD) → (b : Ref sig .tc) → Buf (Elt F) ((c : Thread nD τ).loc b))

/-! ### After a first key tile: the step over the reset values -/

theorem stA_max (c : Dev nD) (t : Fin cfg1.N) (h0 : t.val % 8 = 0) (h1 : ¬t.val % 8 = 7) :
    (stA V c t h0 h1).2.1 = k1_pay2 (k1_pay8 (iblk1 V c 0 t) (iblk1 V c 1 t) k1_pay4) := by
  unfold stA
  dsimp only
  unfold readS0
  exact (View.read_writes_eq_canon VS1_0 VS1_0.junk _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))).trans (canonA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

theorem stA_den (c : Dev nD) (t : Fin cfg1.N) (h0 : t.val % 8 = 0) (h1 : ¬t.val % 8 = 7) :
    (stA V c t h0 h1).2.2.1 = k1_pay11 (iblk1 V c 0 t) (iblk1 V c 1 t) k1_pay4 k1_pay4 k1_pay5 := by
  unfold stA
  dsimp only
  unfold readS1
  exact (View.read_writes_eq_canon VS1_1 VS1_1.junk _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))).trans (canonA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

theorem stA_num (c : Dev nD) (t : Fin cfg1.N) (h0 : t.val % 8 = 0) (h1 : ¬t.val % 8 = 7) :
    (stA V c t h0 h1).2.2.2 = k1_pay1 (k1_pay12 (iblk1 V c 0 t) (iblk1 V c 1 t) k1_pay4 k1_pay4 (iblk1 V c 2 t) k1_pay6) := by
  unfold stA
  dsimp only
  unfold readS2
  exact (View.read_writes_eq_canon VS1_2 VS1_2.junk _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))).trans (canonA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

/-! ### After a middle key tile: the step over what the tile before left -/

theorem stB_max (c : Dev nD) (t : Fin cfg1.N) (h0 : ¬t.val % 8 = 0) (h1 : ¬t.val % 8 = 7) (p : St F) :
    (stB V c t h0 h1 p).2.1 = k1_pay2 (k1_pay8 (iblk1 V c 0 t) (iblk1 V c 1 t) p.2.1) := by
  unfold stB
  dsimp only
  unfold readS0
  exact (View.read_writes_eq_canon VS1_0 VS1_0.junk _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)).trans (canonB_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)

theorem stB_den (c : Dev nD) (t : Fin cfg1.N) (h0 : ¬t.val % 8 = 0) (h1 : ¬t.val % 8 = 7) (p : St F) :
    (stB V c t h0 h1 p).2.2.1 = k1_pay11 (iblk1 V c 0 t) (iblk1 V c 1 t) p.2.1 p.2.1 p.2.2.1 := by
  unfold stB
  dsimp only
  unfold readS1
  exact (View.read_writes_eq_canon VS1_1 VS1_1.junk _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)).trans (canonB_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)

theorem stB_num (c : Dev nD) (t : Fin cfg1.N) (h0 : ¬t.val % 8 = 0) (h1 : ¬t.val % 8 = 7) (p : St F) :
    (stB V c t h0 h1 p).2.2.2 = k1_pay1 (k1_pay12 (iblk1 V c 0 t) (iblk1 V c 1 t) p.2.1 p.2.1 (iblk1 V c 2 t) p.2.2.2) := by
  unfold stB
  dsimp only
  unfold readS2
  exact (View.read_writes_eq_canon VS1_2 VS1_2.junk _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)).trans (canonB_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)

/-! ### After a last key tile: the same step, and the output tile -/

theorem stC_max (c : Dev nD) (t : Fin cfg1.N) (h0 : ¬t.val % 8 = 0) (h1 : t.val % 8 = 7) (p : St F) :
    (stC V c t h0 h1 p).2.1 = k1_pay2 (k1_pay8 (iblk1 V c 0 t) (iblk1 V c 1 t) p.2.1) := by
  unfold stC
  dsimp only
  unfold readS0
  exact (View.read_writes_eq_canon VS1_0 VS1_0.junk _ (scover1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)).trans (canonC_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

theorem stC_den (c : Dev nD) (t : Fin cfg1.N) (h0 : ¬t.val % 8 = 0) (h1 : t.val % 8 = 7) (p : St F) :
    (stC V c t h0 h1 p).2.2.1 = k1_pay11 (iblk1 V c 0 t) (iblk1 V c 1 t) p.2.1 p.2.1 p.2.2.1 := by
  unfold stC
  dsimp only
  unfold readS1
  exact (View.read_writes_eq_canon VS1_1 VS1_1.junk _ (scover1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)).trans (canonC_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

theorem stC_num (c : Dev nD) (t : Fin cfg1.N) (h0 : ¬t.val % 8 = 0) (h1 : t.val % 8 = 7) (p : St F) :
    (stC V c t h0 h1 p).2.2.2 = k1_pay1 (k1_pay12 (iblk1 V c 0 t) (iblk1 V c 1 t) p.2.1 p.2.1 (iblk1 V c 2 t) p.2.2.2) := by
  unfold stC
  dsimp only
  unfold readS2
  exact (View.read_writes_eq_canon VS1_2 VS1_2.junk _ (scover1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)).trans (canonC_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

theorem stC_out (c : Dev nD) (t : Fin cfg1.N) (h0 : ¬t.val % 8 = 0) (h1 : t.val % 8 = 7) (p : St F) :
    (stC V c t h0 h1 p).1 = k1_pay3 (k1_pay1 (k1_pay12 (iblk1 V c 0 t) (iblk1 V c 1 t) p.2.1 p.2.1 (iblk1 V c 2 t) p.2.2.2)) (k1_pay11 (iblk1 V c 0 t) (iblk1 V c 1 t) p.2.1 p.2.1 p.2.2.1) := by
  unfold stC
  dsimp only
  unfold readO3
  exact (View.read_writes_eq_canon VO1_3 VO1_3.junk _ (cover1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)).trans (canonC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

end State

end Cert.KernelIdeal.Hand
end
-- ==== Proof.KI.Blocks1.lean ====
/-
  The attention region's block arithmetic.

  The region has 128 points: 16 query tiles of 512 rows by 8 key tiles of 1024 rows, the key tile innermost, so point t
  has query tile t / 8 and key tile t % 8. A block's element sits in its array at block index × block size + its
  coordinate inside the block; along the columns every block index is 0. So the query block at point t, at (r, e), is row
  512 (t / 8) + r of the queries; the key and value blocks at (j, ·) are row 1024 (t % 8) + j of theirs; and the output
  block is rows 512 (t / 8) … 512 (t / 8) + 511 of the result. The output is written back at the last key tile only
  (t % 8 = 7), and row r of the result lies in the block of the point 8 (r / 512) + 7, which does write back: the result
  array ends as whatever single function those write-backs are blocks of.
-/
import proofs.«171233_j76312978915618_2_alg».proof.Proof.KI.Region1
import Idealize.ShloMosaic.Lib.Pipeline.Value
import Idealize.ShloMosaic.Lib.ValueIdx

noncomputable section

namespace Cert.KernelIdeal.Blocks1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the four windows, decided over the 128 points: the query and output tiles follow t / 8, the
    key and value tiles t % 8, and every block starts at column 0. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- A point's number is below 128. -/
theorem t_lt1 (t : Fin cfg1.N) : t.val < 128 := by
  have h := t.isLt
  have hN : cfg1.N = 128 := N_1
  omega

/-! ## The input blocks -/

/-- The query block at point t, at (r, e): row 512 (t / 8) + r of the queries. -/
theorem iblk1_0_apply (c : Dev nD) (t : Fin cfg1.N) (r : Fin 512) (e : Fin 1024) :
    (iblk1 V c 0 t : Vec Ideal S512x1024 .f32) (ix2 r e)
      = (V c main_v2_0 : S8192x1024.Idx → EReal) (ix2 ⟨512 * (t.val / 8) + r.val, by have := t_lt1 t; omega⟩ e) := by
  obtain ⟨e0, e1, -⟩ := idx_facts1 t
  unfold iblk1
  rw [View.read_apply]
  show V c main_v2_0 _ = V c main_v2_0 _
  congr 1
  funext a
  apply Fin.ext
  match a with
  | ⟨0, _⟩ => show win1_0.index t 0 * 512 + 1 * r.val = 512 * (t.val / 8) + r.val; rw [e0]; omega
  | ⟨1, _⟩ => show win1_0.index t 1 * 1024 + 1 * e.val = e.val; rw [e1]; omega

/-- The key block at point t, at (j, e): row 1024 (t % 8) + j of the keys. -/
theorem iblk1_1_apply (c : Dev nD) (t : Fin cfg1.N) (j e : Fin 1024) :
    (iblk1 V c 1 t : Vec Ideal S1024x1024 .f32) (ix2 j e)
      = (V c main_v2_1 : S8192x1024.Idx → EReal) (ix2 ⟨1024 * (t.val % 8) + j.val, by omega⟩ e) := by
  obtain ⟨-, -, e0, e1, -⟩ := idx_facts1 t
  unfold iblk1
  rw [View.read_apply]
  show V c main_v2_1 _ = V c main_v2_1 _
  congr 1
  funext a
  apply Fin.ext
  match a with
  | ⟨0, _⟩ => show win1_1.index t 0 * 1024 + 1 * j.val = 1024 * (t.val % 8) + j.val; rw [e0]; omega
  | ⟨1, _⟩ => show win1_1.index t 1 * 1024 + 1 * e.val = e.val; rw [e1]; omega

/-- The value block at point t, at (j, d): row 1024 (t % 8) + j of the values. -/
theorem iblk1_2_apply (c : Dev nD) (t : Fin cfg1.N) (j d : Fin 1024) :
    (iblk1 V c 2 t : Vec Ideal S1024x1024 .bf16) (ix2 j d)
      = (V c main_v2_2 : S8192x1024.Idx → EReal) (ix2 ⟨1024 * (t.val % 8) + j.val, by omega⟩ d) := by
  obtain ⟨-, -, -, -, e0, e1, -⟩ := idx_facts1 t
  unfold iblk1
  rw [View.read_apply]
  show V c main_v2_2 _ = V c main_v2_2 _
  congr 1
  funext a
  apply Fin.ext
  match a with
  | ⟨0, _⟩ => show win1_2.index t 0 * 1024 + 1 * j.val = 1024 * (t.val % 8) + j.val; rw [e0]; omega
  | ⟨1, _⟩ => show win1_2.index t 1 * 1024 + 1 * d.val = d.val; rw [e1]; omega

/-! ## The output window -/

/-- Block t of the output window, of any array G, at (r, d): G at row 512 (t / 8) + r. -/
theorem read_blk1_3 (G : S8192x1024.Idx → EReal) (t : Fin cfg1.N) (r : Fin 512) (d : Fin 1024) :
    ((cfg1.win 3).blk t).view.read (Elt Ideal) G (ix2 r d)
      = G (ix2 ⟨512 * (t.val / 8) + r.val, by have := t_lt1 t; omega⟩ d) := by
  obtain ⟨-, -, -, -, -, -, e0, e1⟩ := idx_facts1 t
  rw [View.read_apply]
  show G _ = G _
  congr 1
  funext a
  apply Fin.ext
  match a with
  | ⟨0, _⟩ => show win1_3.index t 0 * 512 + 1 * r.val = 512 * (t.val / 8) + r.val; rw [e0]; omega
  | ⟨1, _⟩ => show win1_3.index t 1 * 1024 + 1 * d.val = d.val; rw [e1]; omega

/-- An index of the result is in point t's output block iff each coordinate is in the block's range. -/
theorem mem_blk1_3 (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v3).slice (win1_3.rect t)).set ↔ _
  rw [View.set_slice_whole, Rect.mem_set_unit]
  exact Iff.rfl

/-- Row r of the result is in the output block of the point 8 (r / 512) + 7, a last key tile, which writes back. -/
theorem cover1_3 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 128 := N_1
  have hlt : 8 * ((i 0).val / 512) + 7 < cfg1.N := by rw [hN]; omega
  obtain ⟨-, -, -, -, -, -, e0, e1⟩ := idx_facts1 ⟨8 * ((i 0).val / 512) + 7, hlt⟩
  refine ⟨⟨8 * ((i 0).val / 512) + 7, hlt⟩, (flush1_3 _).mpr (by show (8 * ((i 0).val / 512) + 7) % 8 = 7; omega), ?_⟩
  rw [mem_blk1_3]
  intro a
  match a with
  | ⟨0, _⟩ =>
    show win1_3.index ⟨8 * ((i 0).val / 512) + 7, hlt⟩ 0 * 512 ≤ (i 0).val ∧ (i 0).val < win1_3.index ⟨8 * ((i 0).val / 512) + 7, hlt⟩ 0 * 512 + 512
    rw [e0]
    show (8 * ((i 0).val / 512) + 7) / 8 * 512 ≤ (i 0).val ∧ (i 0).val < (8 * ((i 0).val / 512) + 7) / 8 * 512 + 512
    omega
  | ⟨1, _⟩ =>
    show win1_3.index ⟨8 * ((i 0).val / 512) + 7, hlt⟩ 1 * 1024 ≤ (i 1).val ∧ (i 1).val < win1_3.index ⟨8 * ((i 0).val / 512) + 7, hlt⟩ 1 * 1024 + 1024
    rw [e1]; omega

/-- What a point writes back through the output window is what the body left in the window's staging buffer: the
    window's blocks are never cut at the array's end, so the part the transfer moves is all of it. -/
theorem flushed1_3_eq (c : Dev nD) (t : Fin cfg1.N) :
    (dat1 V c).flushed 3 t = (outsAt1 V c t.val t.isLt).1 := by
  show (cfg1.win 3).cut (grid1.coords t) ((dat1 V c).after 3 t) = _
  rw [after1_3]
  generalize (outsAt1 V c t.val t.isLt).1 = X
  rfl

/-- If every last-key-tile point writes back its block of one function G of the index, the result array ends as G. -/
theorem arr1_3_of (c : Dev nD) (G : S8192x1024.Idx → EReal)
    (h : ∀ t : Fin cfg1.N, t.val % 8 = 7 → (dat1 V c).flushed 3 t = ((cfg1.win 3).blk t).view.read (Elt Ideal) G) :
    (dat1 V c).arrAt 3 cfg1.N = G :=
  (dat1 V c).arrAt_eq_of_cover 3 G (fun t hf => h t ((flush1_3 t).mp hf)) cover1_3

end Cert.KernelIdeal.Blocks1

end
-- ==== Proof.LibOnlineSoftmax.lean ====
/-
  Online softmax over blocks of keys equals softmax, over the extended reals.

  Scores `s j` and values `v j` are real; the keys are split into `a` blocks of `b` keys. A running
  maximum `M`, a running normaliser `L` and a running weighted sum `A` are updated block by block:

      M (t+1) = max (M t) (max of block t's scores)
      L (t+1) = exp (M t - M (t+1)) * L t + ∑ k in block t, exp (s k - M (t+1))
      A (t+1) = exp (M t - M (t+1)) * A t + ∑ k in block t, exp (s k - M (t+1)) * v k

  starting from `M 0 = ⊥` (that is, -∞), `L 0 = 0`, `A 0 = 0`. The state lives in the extended reals
  because it starts at `⊥`; there `⊥ - x = ⊥` and `exp ⊥ = 0`, so the first rescaling factor is `0`
  and multiplies `0`.

  The closed forms, for every `t ≤ a`: `M t` is the supremum `μ_t` of the scores of the first `t` blocks
  (a real number once `t ≥ 1`, as a block is not empty), and

      L t = ∑ over the first t blocks of exp (s j - μ_t),
      A t = ∑ over the first t blocks of exp (s j - μ_t) * v j.

  The step `t → t+1` is `exp (μ_t - μ_{t+1}) * exp (s j - μ_t) = exp (s j - μ_{t+1})`: the old terms are
  rescaled to the new maximum, and the new block's terms already refer to it. At `t = a` the sums
  run over all keys, `L a` is a positive real number, and
  `A a / L a = ∑ j, (exp (s j - μ) / ∑ j', exp (s j' - μ)) * v j`, the softmax-weighted mean of the
  values, with `μ` the maximum of all scores.
-/
import Idealize.ShloMosaic.PureOps.Ideal

namespace LibOnlineSoftmax

open Idealize.ShloMosaic
open scoped BigOperators

/-! ### Coercions of finite sums and of exponentials -/

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) (fun i s hi ih => ?_)
  rw [Finset.sum_insert hi, Finset.sum_insert hi, EReal.coe_add, ih]

/-- `exp` of a difference of two reals, read in the extended reals, is the real exponential. -/
theorem exp_coe_sub (x y : ℝ) :
    Ideal.exp ((x : EReal) - (y : EReal)) = ((Real.exp (x - y) : ℝ) : EReal) := by
  rw [← EReal.coe_sub, Ideal.exp_coe]

/-! ### Suprema of blocks and of prefixes of blocks -/

/-- The supremum of the scores of block `i`, as an extended real. -/
noncomputable def blockSup {b : ℕ} (S : ℕ → Fin b → ℝ) (i : ℕ) : EReal :=
  Finset.univ.sup fun k : Fin b => ((S i k : ℝ) : EReal)

/-- The supremum of the scores of the first `t` blocks; `⊥` for `t = 0`. -/
noncomputable def prefixSup {b : ℕ} (S : ℕ → Fin b → ℝ) (t : ℕ) : EReal :=
  (Finset.range t).sup (blockSup S)

theorem prefixSup_zero {b : ℕ} (S : ℕ → Fin b → ℝ) : prefixSup S 0 = ⊥ := by
  simp [prefixSup]

theorem prefixSup_succ {b : ℕ} (S : ℕ → Fin b → ℝ) (t : ℕ) :
    prefixSup S (t + 1) = max (prefixSup S t) (blockSup S t) := by
  rw [prefixSup, Finset.range_add_one, Finset.sup_insert, sup_comm]
  rfl

/-- Once there is at least one (non-empty) block, the prefix supremum is a real number. -/
theorem prefixSup_real {b : ℕ} (hb : 0 < b) (S : ℕ → Fin b → ℝ) {t : ℕ} (ht : 0 < t) :
    ∃ μ : ℝ, prefixSup S t = (μ : EReal) := by
  have hbot : prefixSup S t ≠ ⊥ := by
    have h1 : ((S 0 ⟨0, hb⟩ : ℝ) : EReal) ≤ blockSup S 0 :=
      Finset.le_sup (f := fun k : Fin b => ((S 0 k : ℝ) : EReal)) (Finset.mem_univ _)
    have h2 : blockSup S 0 ≤ prefixSup S t :=
      Finset.le_sup (f := blockSup S) (Finset.mem_range.2 ht)
    exact ne_of_gt (lt_of_lt_of_le (EReal.bot_lt_coe _) (h1.trans h2))
  have htop : prefixSup S t ≠ ⊤ := by
    refine ne_of_lt ((Finset.sup_lt_iff bot_lt_top).2 fun i _ => ?_)
    exact (Finset.sup_lt_iff bot_lt_top).2 fun k _ => EReal.coe_lt_top _
  exact ⟨(prefixSup S t).toReal, (EReal.coe_toReal htop hbot).symm⟩

/-! ### The closed forms of the running state -/

/-- Moving the reference point of every exponential of a sum over blocks from `μ` to `μ'`:
    `exp (μ - μ') * exp (s - μ) = exp (s - μ')`. -/
theorem rescale_sum {b : ℕ} (S W : ℕ → Fin b → ℝ) (t : ℕ) (μ μ' : ℝ) :
    Real.exp (μ - μ') * ∑ i ∈ Finset.range t, ∑ k : Fin b, Real.exp (S i k - μ) * W i k
      = ∑ i ∈ Finset.range t, ∑ k : Fin b, Real.exp (S i k - μ') * W i k := by
  rw [Finset.mul_sum]
  refine Finset.sum_congr rfl fun i _ => ?_
  rw [Finset.mul_sum]
  refine Finset.sum_congr rfl fun k _ => ?_
  rw [← mul_assoc, ← Real.exp_add]
  congr 2
  ring

/-- The running maximum after `t` blocks is the supremum of the scores of those blocks. -/
theorem max_closed {b : ℕ} (a : ℕ) (S : ℕ → Fin b → ℝ) (M : ℕ → EReal) (hM0 : M 0 = ⊥)
    (hM : ∀ t, t < a → M (t + 1) = max (M t) (blockSup S t)) :
    ∀ t, t ≤ a → M t = prefixSup S t := by
  intro t
  induction t with
  | zero => intro _; rw [hM0, prefixSup_zero]
  | succ t ih => intro ht; rw [hM t ht, ih (Nat.le_of_succ_le ht), prefixSup_succ]

/-- The running weighted sum after `t` blocks: every key of those blocks contributes
    `exp (s - μ_t) * w`, with `μ_t` the supremum of the scores so far. -/
theorem acc_closed {b : ℕ} (hb : 0 < b) (a : ℕ) (S W : ℕ → Fin b → ℝ) (M A : ℕ → EReal)
    (hMc : ∀ t, t ≤ a → M t = prefixSup S t) (hA0 : A 0 = 0)
    (hA : ∀ t, t < a → A (t + 1) = Ideal.exp (M t - M (t + 1)) * A t
        + ∑ k : Fin b, Ideal.exp (((S t k : ℝ) : EReal) - M (t + 1)) * ((W t k : ℝ) : EReal)) :
    ∀ t, t ≤ a → A t = ((∑ i ∈ Finset.range t, ∑ k : Fin b,
        Real.exp (S i k - (prefixSup S t).toReal) * W i k : ℝ) : EReal) := by
  intro t
  induction t with
  | zero => intro _; rw [hA0]; simp
  | succ t ih =>
    intro ht
    have htl : t < a := ht
    obtain ⟨μ', hμ'⟩ := prefixSup_real hb S (Nat.succ_pos t)
    rw [hA t htl, ih (Nat.le_of_lt htl), hMc (t + 1) ht, hμ', EReal.toReal_coe]
    -- the terms of the earlier blocks are rescaled to the new supremum
    have hold : Ideal.exp (M t - (μ' : EReal)) * ((∑ i ∈ Finset.range t, ∑ k : Fin b,
          Real.exp (S i k - (prefixSup S t).toReal) * W i k : ℝ) : EReal)
        = ((∑ i ∈ Finset.range t, ∑ k : Fin b, Real.exp (S i k - μ') * W i k : ℝ) : EReal) := by
      rcases Nat.eq_zero_or_pos t with rfl | htpos
      · simp
      · obtain ⟨μ, hμ⟩ := prefixSup_real hb S htpos
        rw [hMc t (Nat.le_of_lt htl), hμ, EReal.toReal_coe, exp_coe_sub, ← EReal.coe_mul,
          rescale_sum]
    -- the terms of the new block already refer to the new supremum
    have hnew : ∑ k : Fin b, Ideal.exp (((S t k : ℝ) : EReal) - (μ' : EReal)) * ((W t k : ℝ) : EReal)
        = ((∑ k : Fin b, Real.exp (S t k - μ') * W t k : ℝ) : EReal) := by
      rw [coe_sum]
      refine Finset.sum_congr rfl fun k _ => ?_
      rw [exp_coe_sub, ← EReal.coe_mul]
    rw [hold, hnew, ← EReal.coe_add, Finset.sum_range_succ]

/-- The running normaliser after `t` blocks: the weighted sum with all weights `1`. -/
theorem norm_closed {b : ℕ} (hb : 0 < b) (a : ℕ) (S : ℕ → Fin b → ℝ) (M L : ℕ → EReal)
    (hMc : ∀ t, t ≤ a → M t = prefixSup S t) (hL0 : L 0 = 0)
    (hL : ∀ t, t < a → L (t + 1) = Ideal.exp (M t - M (t + 1)) * L t
        + ∑ k : Fin b, Ideal.exp (((S t k : ℝ) : EReal) - M (t + 1))) :
    ∀ t, t ≤ a → L t = ((∑ i ∈ Finset.range t, ∑ k : Fin b,
        Real.exp (S i k - (prefixSup S t).toReal) : ℝ) : EReal) := by
  intro t ht
  have h := acc_closed hb a S (fun _ _ => 1) M L hMc hL0
    (fun t ht => by rw [hL t ht]; simp) t ht
  simpa using h

/-! ### The blocks of `Fin (a * b)` -/

/-- Key `k` of block `t` is key `b * t + k` of all `a * b` keys. -/
theorem blk_lt {a b t : ℕ} (ht : t < a) (k : Fin b) : b * t + k.val < a * b :=
  calc b * t + k.val < b * t + b := Nat.add_lt_add_left k.is_lt _
    _ = b * (t + 1) := (Nat.mul_succ b t).symm
    _ ≤ b * a := Nat.mul_le_mul_left b ht
    _ = a * b := Nat.mul_comm b a

/-- A sum over all keys is the sum over the blocks of the sums over each block. -/
theorem sum_blocks {a b : ℕ} (G : ℕ → Fin b → ℝ) (F : Fin (a * b) → ℝ)
    (hGF : ∀ i (hi : i < a) (k : Fin b), G i k = F ⟨b * i + k, blk_lt hi k⟩) :
    ∑ i ∈ Finset.range a, ∑ k : Fin b, G i k = ∑ j : Fin (a * b), F j := by
  rw [Finset.sum_range, ← Equiv.sum_comp finProdFinEquiv F, Fintype.sum_prod_type]
  refine Finset.sum_congr rfl fun i _ => Finset.sum_congr rfl fun k _ => ?_
  rw [hGF i i.is_lt k]
  congr 1
  apply Fin.ext
  simp [Nat.add_comm]

/-- The supremum over all keys is the supremum over the blocks of the suprema of each block. -/
theorem sup_blocks {a b : ℕ} (S : ℕ → Fin b → ℝ) (s : Fin (a * b) → ℝ)
    (hS : ∀ i (hi : i < a) (k : Fin b), S i k = s ⟨b * i + k, blk_lt hi k⟩) :
    prefixSup S a = Finset.univ.sup fun j : Fin (a * b) => ((s j : ℝ) : EReal) := by
  apply le_antisymm
  · refine Finset.sup_le fun i hi => Finset.sup_le fun k _ => ?_
    rw [hS i (Finset.mem_range.1 hi) k]
    exact Finset.le_sup (f := fun j : Fin (a * b) => ((s j : ℝ) : EReal)) (Finset.mem_univ _)
  · refine Finset.sup_le fun j _ => ?_
    have hb : 0 < b := by
      rcases Nat.eq_zero_or_pos b with rfl | h
      · exact absurd j.is_lt (by simp)
      · exact h
    have hi : j.val / b < a := by
      have hj : j.val < b * a := Nat.mul_comm a b ▸ j.is_lt
      exact Nat.div_lt_of_lt_mul hj
    have h1 : ((s j : ℝ) : EReal) = ((S (j.val / b) ⟨j.val % b, Nat.mod_lt _ hb⟩ : ℝ) : EReal) := by
      rw [hS _ hi]
      congr 2
      exact Fin.ext (Nat.div_add_mod _ _).symm
    rw [h1]
    exact (Finset.le_sup (f := fun k : Fin b => ((S (j.val / b) k : ℝ) : EReal))
      (Finset.mem_univ _)).trans (Finset.le_sup (f := blockSup S) (Finset.mem_range.2 hi))

/-! ### Online softmax equals softmax -/

/-- The online-softmax state after all `a` blocks gives the softmax-weighted mean of the values:
    `A a / L a = ∑ j, (exp (s j - μ) / ∑ j', exp (s j' - μ)) * v j`, `μ` the supremum of all scores. -/
theorem online_softmax {a b : ℕ} (ha : 0 < a) (hb : 0 < b) (s v : Fin (a * b) → ℝ)
    (M L A : ℕ → EReal)
    (hM0 : M 0 = ⊥) (hL0 : L 0 = 0) (hA0 : A 0 = 0)
    (hM : ∀ t (ht : t < a), M (t + 1) = max (M t) (Finset.univ.sup fun k : Fin b => ((s ⟨b * t + k, blk_lt ht k⟩ : ℝ) : EReal)))
    (hL : ∀ t (ht : t < a), L (t + 1) = Ideal.exp (M t - M (t + 1)) * L t
        + ∑ k : Fin b, Ideal.exp (((s ⟨b * t + k, blk_lt ht k⟩ : ℝ) : EReal) - M (t + 1)))
    (hA : ∀ t (ht : t < a), A (t + 1) = Ideal.exp (M t - M (t + 1)) * A t
        + ∑ k : Fin b, Ideal.exp (((s ⟨b * t + k, blk_lt ht k⟩ : ℝ) : EReal) - M (t + 1)) * ((v ⟨b * t + k, blk_lt ht k⟩ : ℝ) : EReal)) :
    Ideal.div (A a) (L a)
      = ∑ j : Fin (a * b), Ideal.div (Ideal.exp (((s j : ℝ) : EReal) - Finset.univ.sup fun j' : Fin (a * b) => ((s j' : ℝ) : EReal)))
            (∑ j' : Fin (a * b), Ideal.exp (((s j' : ℝ) : EReal) - Finset.univ.sup fun j'' : Fin (a * b) => ((s j'' : ℝ) : EReal))) * ((v j : ℝ) : EReal) := by
  -- scores and values indexed by (block, key in block), total in the block number
  obtain ⟨S, hS⟩ : ∃ S : ℕ → Fin b → ℝ,
      ∀ i (hi : i < a) (k : Fin b), S i k = s ⟨b * i + k, blk_lt hi k⟩ :=
    ⟨fun i k => if h : i < a then s ⟨b * i + k, blk_lt h k⟩ else 0, fun i hi k => dif_pos hi⟩
  obtain ⟨V, hV⟩ : ∃ V : ℕ → Fin b → ℝ,
      ∀ i (hi : i < a) (k : Fin b), V i k = v ⟨b * i + k, blk_lt hi k⟩ :=
    ⟨fun i k => if h : i < a then v ⟨b * i + k, blk_lt h k⟩ else 0, fun i hi k => dif_pos hi⟩
  have hM' : ∀ t, t < a → M (t + 1) = max (M t) (blockSup S t) := by
    intro t ht
    rw [hM t ht, blockSup]
    simp only [hS t ht]
  have hL' : ∀ t, t < a → L (t + 1) = Ideal.exp (M t - M (t + 1)) * L t
      + ∑ k : Fin b, Ideal.exp (((S t k : ℝ) : EReal) - M (t + 1)) := by
    intro t ht
    rw [hL t ht]
    simp only [hS t ht]
  have hA' : ∀ t, t < a → A (t + 1) = Ideal.exp (M t - M (t + 1)) * A t
      + ∑ k : Fin b, Ideal.exp (((S t k : ℝ) : EReal) - M (t + 1)) * ((V t k : ℝ) : EReal) := by
    intro t ht
    rw [hA t ht]
    simp only [hS t ht, hV t ht]
  -- the closed forms at `t = a`, with the supremum `μ` of all scores a real number
  have hMc := max_closed a S M hM0 hM'
  have hLc := norm_closed hb a S M L hMc hL0 hL' a le_rfl
  have hAc := acc_closed hb a S V M A hMc hA0 hA' a le_rfl
  obtain ⟨μ, hμ⟩ := prefixSup_real hb S ha
  have hsup : (Finset.univ.sup fun j : Fin (a * b) => ((s j : ℝ) : EReal)) = (μ : EReal) := by
    rw [← sup_blocks S s hS, hμ]
  rw [hμ, EReal.toReal_coe] at hLc hAc
  rw [sum_blocks (fun i k => Real.exp (S i k - μ)) (fun j => Real.exp (s j - μ))
    (fun i hi k => by simp only [hS i hi k])] at hLc
  rw [sum_blocks (fun i k => Real.exp (S i k - μ) * V i k) (fun j => Real.exp (s j - μ) * v j)
    (fun i hi k => by simp only [hS i hi k, hV i hi k])] at hAc
  -- the normaliser is a positive real
  have hZ : (0 : ℝ) < ∑ j : Fin (a * b), Real.exp (s j - μ) := by
    haveI : Nonempty (Fin (a * b)) := ⟨⟨0, Nat.mul_pos ha hb⟩⟩
    exact Finset.sum_pos (fun j _ => Real.exp_pos _) Finset.univ_nonempty
  have hden : ∑ j' : Fin (a * b), Ideal.exp (((s j' : ℝ) : EReal) - (μ : EReal))
      = ((∑ j' : Fin (a * b), Real.exp (s j' - μ) : ℝ) : EReal) := by
    rw [coe_sum]
    exact Finset.sum_congr rfl fun j _ => exp_coe_sub _ _
  have hterm : ∀ j : Fin (a * b),
      Ideal.div (Ideal.exp (((s j : ℝ) : EReal) - (μ : EReal)))
          ((∑ j' : Fin (a * b), Real.exp (s j' - μ) : ℝ) : EReal) * ((v j : ℝ) : EReal)
        = ((Real.exp (s j - μ) * (1 / ∑ j' : Fin (a * b), Real.exp (s j' - μ)) * v j : ℝ) : EReal) := by
    intro j
    rw [Ideal.div_coe hZ.ne', exp_coe_sub, ← EReal.coe_mul, ← EReal.coe_mul]
  rw [hLc, hAc, hsup, hden, Ideal.div_coe hZ.ne', ← EReal.coe_mul]
  simp only [hterm]
  rw [← coe_sum, Finset.sum_mul]
  congr 1
  exact Finset.sum_congr rfl fun j _ => by ring

end LibOnlineSoftmax
-- ==== Proof.FlashSpec.lean ====
/-
  The online recursion over key tiles ends at the specification.

  The 8192 keys are split into 8 tiles of 1024. For query row i and output column d, a running maximum M, a running
  normaliser L and a running weighted sum A are updated tile by tile,

      M (t+1) = max (M t) (max of tile t's scores)
      L (t+1) = exp (M t − M (t+1)) · L t + ∑ k in tile t, exp (score k − M (t+1))
      A (t+1) = exp (M t − M (t+1)) · A t + ∑ k in tile t, exp (score k − M (t+1)) · v(k, d)

  from M 0 = ⊥, L 0 = 0, A 0 = 0. When the four input arrays hold real numbers, the projections and the scores are real
  numbers too (finite sums of products of reals), so the general statement about online softmax over real scores and
  values applies row by row and column by column: A 8 / L 8 is the softmax-weighted sum of the specification.
-/
import proofs.«171233_j76312978915618_2_alg».proof.Proof.Spec
import proofs.«171233_j76312978915618_2_alg».proof.Proof.LibOnlineSoftmax

namespace Cert.FlashSpec

open Idealize.ShloMosaic Idealize.ShloMosaic.ValueIdx Cert

/-- A projection of real arrays is real: a finite sum of products of reals. -/
theorem proj_real (x : Spec.Mat 8192 1024) (w : Spec.Mat 1024 1024)
    (hx : ∀ i, ∃ r : ℝ, x i = (r : EReal)) (hw : ∀ i, ∃ r : ℝ, w i = (r : EReal)) :
    ∃ P : Fin 8192 → Fin 1024 → ℝ, ∀ p d, Spec.proj x w p d = ((P p d : ℝ) : EReal) := by
  choose xr hxr using hx
  choose wr hwr using hw
  refine ⟨fun p d => ∑ k : Fin 1024, xr (ix2 p k) * wr (ix2 k d), fun p d => ?_⟩
  unfold Spec.proj
  rw [LibOnlineSoftmax.coe_sum]
  refine Finset.sum_congr rfl fun k _ => ?_
  rw [hxr, hwr, EReal.coe_mul]

/-- The scores of real arrays are real: finite sums of products of real projections. -/
theorem score_real (x : Spec.Mat 8192 1024) (wq wk : Spec.Mat 1024 1024)
    (hx : ∀ i, ∃ r : ℝ, x i = (r : EReal)) (hq : ∀ i, ∃ r : ℝ, wq i = (r : EReal))
    (hk : ∀ i, ∃ r : ℝ, wk i = (r : EReal)) :
    ∃ S : Fin 8192 → Fin 8192 → ℝ, ∀ i j, Spec.score x wq wk i j = ((S i j : ℝ) : EReal) := by
  obtain ⟨Q, hQ⟩ := proj_real x wq hx hq
  obtain ⟨K, hK⟩ := proj_real x wk hx hk
  refine ⟨fun i j => ∑ e : Fin 1024, Q i e * K j e, fun i j => ?_⟩
  unfold Spec.score
  rw [LibOnlineSoftmax.coe_sum]
  refine Finset.sum_congr rfl fun e _ => ?_
  rw [hQ, hK, EReal.coe_mul]

/-- The online recursion over the 8 tiles of 1024 keys, on real inputs, ends at the specification. -/
theorem flash_eq_attn (x : Spec.Mat 8192 1024) (wq wk wv : Spec.Mat 1024 1024)
    (hx : ∀ i, ∃ r : ℝ, x i = (r : EReal)) (hq : ∀ i, ∃ r : ℝ, wq i = (r : EReal)) (hk : ∀ i, ∃ r : ℝ, wk i = (r : EReal)) (hv : ∀ i, ∃ r : ℝ, wv i = (r : EReal))
    (M L : ℕ → Fin 8192 → EReal) (A : ℕ → Fin 8192 → Fin 1024 → EReal)
    (hM0 : ∀ i, M 0 i = ⊥) (hL0 : ∀ i, L 0 i = 0) (hA0 : ∀ i d, A 0 i d = 0)
    (hM : ∀ t (ht : t < 8) i, M (t + 1) i = max (M t i) (Finset.univ.sup fun k : Fin 1024 => Spec.score x wq wk i ⟨1024 * t + k, LibOnlineSoftmax.blk_lt ht k⟩))
    (hL : ∀ t (ht : t < 8) i, L (t + 1) i = Ideal.exp (M t i - M (t + 1) i) * L t i + ∑ k : Fin 1024, Ideal.exp (Spec.score x wq wk i ⟨1024 * t + k, LibOnlineSoftmax.blk_lt ht k⟩ - M (t + 1) i))
    (hA : ∀ t (ht : t < 8) i d, A (t + 1) i d = Ideal.exp (M t i - M (t + 1) i) * A t i d + ∑ k : Fin 1024, Ideal.exp (Spec.score x wq wk i ⟨1024 * t + k, LibOnlineSoftmax.blk_lt ht k⟩ - M (t + 1) i) * Spec.proj x wv ⟨1024 * t + k, LibOnlineSoftmax.blk_lt ht k⟩ d) :
    ∀ i d, Ideal.div (A 8 i d) (L 8 i) = Spec.attnAt x wq wk wv i d := by
  intro i d
  obtain ⟨S, hS⟩ := score_real x wq wk hx hq hk
  obtain ⟨V, hV⟩ := proj_real x wv hx hv
  have key := LibOnlineSoftmax.online_softmax (a := 8) (b := 1024) (by decide) (by decide)
    (fun j => S i j) (fun j => V j d) (fun t => M t i) (fun t => L t i) (fun t => A t i d)
    (hM0 i) (hL0 i) (hA0 i d)
    (fun t ht => by
      have e := hM t ht i
      simp only [hS] at e
      exact e)
    (fun t ht => by
      have e := hL t ht i
      simp only [hS] at e
      exact e)
    (fun t ht => by
      have e := hA t ht i d
      simp only [hS, hV] at e
      exact e)
  simp only [Spec.attnAt, Spec.rowSum, Spec.rowMax, hS, hV]
  exact key

end Cert.FlashSpec
-- ==== Proof.KI.Value1.lean ====
/-
  What the attention region leaves in the result array.

  Point t of the region has query tile t / 8 and key tile t % 8. Per query row the three scratch buffers carry the
  online-softmax state. Read at a global query row i (tile i / 512, row i % 512 of the tile) after s key tiles this
  state is three sequences M s i, L s i, A s i d, starting at (-inf, 0, 0) and stepping, by the body's payloads read
  at an index, exactly as the online recursion over the scores of row i against the keys 1024 s … 1024 s + 1023.
  After the eighth tile the body stores A / L, which the recursion's closed form identifies with the softmax-weighted
  sum; the blocks written back at the last key tiles cover the array.
-/
import proofs.«171233_j76312978915618_2_alg».proof.Proof.KI.Pieces1
import proofs.«171233_j76312978915618_2_alg».proof.Proof.KI.Blocks1
import proofs.«171233_j76312978915618_2_alg».proof.Proof.KI.PayIdeal
import proofs.«171233_j76312978915618_2_alg».proof.Proof.FlashSpec

noncomputable section

namespace Cert.KernelIdeal.Value1

open Cert.KernelIdeal Cert.KernelIdeal.Gen Cert.KernelIdeal.Hand Cert.KernelIdeal.Blocks1 Cert.KernelIdeal.PayIdeal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The scratch contents the body works from at point t: the reset values at a first key tile, else what the point
    before left. -/
def prevSt (c : Dev nD) (t : Fin cfg1.N) : Vec Ideal S512x1 .f32 × Vec Ideal S512x1 .f32 × Vec Ideal S512x1024 .f32 :=
  if t.val % 8 = 0 then (k1_pay4 (F := Ideal), k1_pay5 (F := Ideal), k1_pay6 (F := Ideal))
  else (outsAt1 V c (t.val - 1) (Nat.lt_of_le_of_lt (Nat.sub_le _ _) t.isLt)).2

/-- One point's update of the three scratch buffers, as payloads of the point's tiles and of the contents it works from. -/
theorem step (c : Dev nD) (t : Fin cfg1.N) :
    (outsAt1 V c t.val t.isLt).2
      = (k1_pay2 (k1_pay8 (iblk1 V c 0 t) (iblk1 V c 1 t) (prevSt V c t).1),
         k1_pay11 (iblk1 V c 0 t) (iblk1 V c 1 t) (prevSt V c t).1 (prevSt V c t).1 (prevSt V c t).2.1,
         k1_pay1 (k1_pay12 (iblk1 V c 0 t) (iblk1 V c 1 t) (prevSt V c t).1 (prevSt V c t).1 (iblk1 V c 2 t) (prevSt V c t).2.2)) := by
  by_cases h0 : t.val % 8 = 0
  · have h1 : ¬t.val % 8 = 7 := by omega
    rw [outsAt1_A V c t h0 h1]
    unfold prevSt; rw [if_pos h0]
    exact Prod.ext (stA_max V c t h0 h1) (Prod.ext (stA_den V c t h0 h1) (stA_num V c t h0 h1))
  · unfold prevSt; rw [if_neg h0]
    by_cases h1 : t.val % 8 = 7
    · rw [outsAt1_C V c t h0 h1]
      exact Prod.ext (stC_max V c t h0 h1 _) (Prod.ext (stC_den V c t h0 h1 _) (stC_num V c t h0 h1 _))
    · rw [outsAt1_B V c t h0 h1]
      exact Prod.ext (stB_max V c t h0 h1 _) (Prod.ext (stB_den V c t h0 h1 _) (stB_num V c t h0 h1 _))

/-- At a last key tile the output tile is the numerator over the denominator just stored. -/
theorem out_last (c : Dev nD) (t : Fin cfg1.N) (h1 : t.val % 8 = 7) :
    (outsAt1 V c t.val t.isLt).1 = k1_pay3 (outsAt1 V c t.val t.isLt).2.2.2 (outsAt1 V c t.val t.isLt).2.2.1 := by
  have h0 : ¬t.val % 8 = 0 := by omega
  rw [outsAt1_C V c t h0 h1, stC_out V c t h0 h1 _, stC_num V c t h0 h1 _, stC_den V c t h0 h1 _]

/-! ## The state read at a global query row -/

theorem pt_lt (i : Fin 8192) (s : ℕ) (hs : s < 8) : 8 * (i.val / 512) + s < cfg1.N := by
  have hN : cfg1.N = 128 := N_1
  have := i.isLt
  omega

/-- The point of query row i's tile at key tile s. -/
def pt (i : Fin 8192) (s : ℕ) (hs : s < 8) : Fin cfg1.N := ⟨8 * (i.val / 512) + s, pt_lt i s hs⟩

/-- Row i's row inside its tile. -/
def rw_ (i : Fin 8192) : Fin 512 := ⟨i.val % 512, Nat.mod_lt _ (by norm_num)⟩

def Mseq (c : Dev nD) (s : ℕ) (i : Fin 8192) : EReal :=
  if h : 0 < s ∧ s ≤ 8 then (outsAt1 V c (pt i (s - 1) (by omega)).val (pt i (s - 1) (by omega)).isLt).2.1 (ix2 (rw_ i) (0 : Fin 1)) else ⊥
def Lseq (c : Dev nD) (s : ℕ) (i : Fin 8192) : EReal :=
  if h : 0 < s ∧ s ≤ 8 then (outsAt1 V c (pt i (s - 1) (by omega)).val (pt i (s - 1) (by omega)).isLt).2.2.1 (ix2 (rw_ i) (0 : Fin 1)) else 0
def Aseq (c : Dev nD) (s : ℕ) (i : Fin 8192) (d : Fin 1024) : EReal :=
  if h : 0 < s ∧ s ≤ 8 then (outsAt1 V c (pt i (s - 1) (by omega)).val (pt i (s - 1) (by omega)).isLt).2.2.2 (ix2 (rw_ i) d) else 0

theorem Mseq_succ (c : Dev nD) (s : ℕ) (hs : s < 8) (i : Fin 8192) :
    Mseq V c (s + 1) i = (outsAt1 V c (pt i s hs).val (pt i s hs).isLt).2.1 (ix2 (rw_ i) (0 : Fin 1)) := by
  unfold Mseq; rw [dif_pos ⟨Nat.succ_pos _, hs⟩]; rfl
theorem Lseq_succ (c : Dev nD) (s : ℕ) (hs : s < 8) (i : Fin 8192) :
    Lseq V c (s + 1) i = (outsAt1 V c (pt i s hs).val (pt i s hs).isLt).2.2.1 (ix2 (rw_ i) (0 : Fin 1)) := by
  unfold Lseq; rw [dif_pos ⟨Nat.succ_pos _, hs⟩]; rfl
theorem Aseq_succ (c : Dev nD) (s : ℕ) (hs : s < 8) (i : Fin 8192) (d : Fin 1024) :
    Aseq V c (s + 1) i d = (outsAt1 V c (pt i s hs).val (pt i s hs).isLt).2.2.2 (ix2 (rw_ i) d) := by
  unfold Aseq; rw [dif_pos ⟨Nat.succ_pos _, hs⟩]; rfl

theorem outsAt1_congr (c : Dev nD) {n n' : ℕ} (e : n = n') (h : n < cfg1.N) (h' : n' < cfg1.N) :
    outsAt1 V c n h = outsAt1 V c n' h' := by subst e; rfl

/-- The contents the body works from at row i's point for key tile s, read at the row, are the sequences at s. -/
theorem prev_eq (c : Dev nD) (s : ℕ) (hs : s < 8) (i : Fin 8192) :
    (prevSt V c (pt i s hs)).1 (ix2 (rw_ i) (0 : Fin 1)) = Mseq V c s i
    ∧ (prevSt V c (pt i s hs)).2.1 (ix2 (rw_ i) (0 : Fin 1)) = Lseq V c s i
    ∧ ∀ d : Fin 1024, (prevSt V c (pt i s hs)).2.2 (ix2 (rw_ i) d) = Aseq V c s i d := by
  have hi := i.isLt
  cases s with
  | zero =>
    have h0 : (pt i 0 hs).val % 8 = 0 := by show (8 * (i.val / 512) + 0) % 8 = 0; omega
    unfold prevSt; rw [if_pos h0]
    refine ⟨?_, ?_, fun d => ?_⟩
    · show k1_pay4 (F := Ideal) (ix2 (rw_ i) (0 : Fin 1)) = _
      rw [k1_pay4_apply]; unfold Mseq; rw [dif_neg (by omega)]
    · show k1_pay5 (F := Ideal) (ix2 (rw_ i) (0 : Fin 1)) = _
      rw [k1_pay5_apply]; unfold Lseq; rw [dif_neg (by omega)]
    · show k1_pay6 (F := Ideal) (ix2 (rw_ i) d) = _
      rw [k1_pay6_apply]; unfold Aseq; rw [dif_neg (by omega)]
  | succ s =>
    have h0 : ¬(pt i (s + 1) hs).val % 8 = 0 := by show ¬(8 * (i.val / 512) + (s + 1)) % 8 = 0; omega
    unfold prevSt; rw [if_neg h0]
    have e : (pt i (s + 1) hs).val - 1 = (pt i s (by omega)).val := by
      show 8 * (i.val / 512) + (s + 1) - 1 = 8 * (i.val / 512) + s; omega
    rw [outsAt1_congr V c e _ (pt i s (by omega)).isLt]
    refine ⟨?_, ?_, fun d => ?_⟩
    · exact (Mseq_succ V c s (by omega) i).symm
    · exact (Lseq_succ V c s (by omega) i).symm
    · exact (Aseq_succ V c s (by omega) i d).symm

/-- The sequences after a step, as the body's payloads of the point's tiles and of the contents it works from. -/
theorem Mseq_pay (c : Dev nD) (s : ℕ) (hs : s < 8) (i : Fin 8192) :
    Mseq V c (s + 1) i = k1_pay8 (iblk1 V c 0 (pt i s hs)) (iblk1 V c 1 (pt i s hs)) (prevSt V c (pt i s hs)).1 (ix2 (rw_ i) (0 : Fin 1)) := by
  rw [Mseq_succ V c s hs i, step V c (pt i s hs)]
  show k1_pay2 (F := Ideal) (k1_pay8 _ _ _) (ix2 (rw_ i) (0 : Fin 1)) = _
  rw [k1_pay2_eq]
theorem Lseq_pay (c : Dev nD) (s : ℕ) (hs : s < 8) (i : Fin 8192) :
    Lseq V c (s + 1) i = k1_pay11 (iblk1 V c 0 (pt i s hs)) (iblk1 V c 1 (pt i s hs)) (prevSt V c (pt i s hs)).1 (prevSt V c (pt i s hs)).1 (prevSt V c (pt i s hs)).2.1 (ix2 (rw_ i) (0 : Fin 1)) := by
  rw [Lseq_succ V c s hs i, step V c (pt i s hs)]
theorem Aseq_pay (c : Dev nD) (s : ℕ) (hs : s < 8) (i : Fin 8192) (d : Fin 1024) :
    Aseq V c (s + 1) i d = k1_pay12 (iblk1 V c 0 (pt i s hs)) (iblk1 V c 1 (pt i s hs)) (prevSt V c (pt i s hs)).1 (prevSt V c (pt i s hs)).1 (iblk1 V c 2 (pt i s hs)) (prevSt V c (pt i s hs)).2.2 (ix2 (rw_ i) d) := by
  rw [Aseq_succ V c s hs i d, step V c (pt i s hs)]
  show k1_pay1 (F := Ideal) (k1_pay12 _ _ _ _ _ _) (ix2 (rw_ i) d) = _
  rw [k1_pay1_eq]

section Bridge

variable (x : Spec.Mat 8192 1024) (wq wk wv : Spec.Mat 1024 1024) (c : Dev nD)
variable (hQ : ∀ (p : Fin 8192) (e : Fin 1024), (V c main_v2_0 : S8192x1024.Idx → EReal) (ix2 p e) = Spec.proj x wq p e)
variable (hK : ∀ (p : Fin 8192) (e : Fin 1024), (V c main_v2_1 : S8192x1024.Idx → EReal) (ix2 p e) = Spec.proj x wk p e)
variable (hV : ∀ (p : Fin 8192) (e : Fin 1024), (V c main_v2_2 : S8192x1024.Idx → EReal) (ix2 p e) = Spec.proj x wv p e)

include hQ hK in
/-- The score the body computes at row i's point for key tile s, at (row, key k), is the specification's score of
    row i against key 1024 s + k. -/
theorem score_eq (s : ℕ) (hs : s < 8) (i : Fin 8192) (k : Fin 1024) :
    k1_pay7 (iblk1 V c 0 (pt i s hs)) (iblk1 V c 1 (pt i s hs)) (ix2 (rw_ i) k)
      = Spec.score x wq wk i ⟨1024 * s + k, LibOnlineSoftmax.blk_lt hs k⟩ := by
  have hi := i.isLt
  rw [k1_pay7_apply]
  unfold Spec.score
  refine Finset.sum_congr rfl fun e _ => ?_
  rw [iblk1_0_apply V c (pt i s hs) (rw_ i) e, iblk1_1_apply V c (pt i s hs) k e]
  have e0 : (⟨512 * ((pt i s hs).val / 8) + (rw_ i).val, by have := t_lt1 (pt i s hs); have := (rw_ i).isLt; omega⟩ : Fin 8192) = i := by
    apply Fin.ext; show 512 * ((8 * (i.val / 512) + s) / 8) + i.val % 512 = i.val; omega
  have e1 : (⟨1024 * ((pt i s hs).val % 8) + k.val, by have := k.isLt; omega⟩ : Fin 8192) = ⟨1024 * s + k, LibOnlineSoftmax.blk_lt hs k⟩ := by
    apply Fin.ext; show 1024 * ((8 * (i.val / 512) + s) % 8) + k.val = 1024 * s + k.val; omega
  rw [e0, e1, hQ, hK]

include hV in
theorem value_eq (s : ℕ) (hs : s < 8) (i : Fin 8192) (k d : Fin 1024) :
    (iblk1 V c 2 (pt i s hs) : Vec Ideal S1024x1024 .bf16) (ix2 k d)
      = Spec.proj x wv ⟨1024 * s + k, LibOnlineSoftmax.blk_lt hs k⟩ d := by
  rw [iblk1_2_apply V c (pt i s hs) k d]
  have e1 : (⟨1024 * ((pt i s hs).val % 8) + k.val, by have := k.isLt; omega⟩ : Fin 8192) = ⟨1024 * s + k, LibOnlineSoftmax.blk_lt hs k⟩ := by
    apply Fin.ext; show 1024 * ((8 * (i.val / 512) + s) % 8) + k.val = 1024 * s + k.val; omega
  rw [e1, hV]

include hQ hK in
theorem hM (s : ℕ) (hs : s < 8) (i : Fin 8192) :
    Mseq V c (s + 1) i = max (Mseq V c s i) (Finset.univ.sup fun k : Fin 1024 => Spec.score x wq wk i ⟨1024 * s + k, LibOnlineSoftmax.blk_lt hs k⟩) := by
  rw [Mseq_pay V c s hs i, k1_pay8_apply, (prev_eq V c s hs i).1]
  congr 1
  exact Finset.sup_congr rfl fun k _ => score_eq V x wq wk c hQ hK s hs i k

include hQ hK in
/-- The exponential weight of key k of tile s for row i, against the new maximum. -/
theorem weight_eq (s : ℕ) (hs : s < 8) (i : Fin 8192) (k : Fin 1024) :
    k1_pay10 (iblk1 V c 0 (pt i s hs)) (iblk1 V c 1 (pt i s hs)) (prevSt V c (pt i s hs)).1 (ix2 (rw_ i) k)
      = Ideal.exp (Spec.score x wq wk i ⟨1024 * s + k, LibOnlineSoftmax.blk_lt hs k⟩ - Mseq V c (s + 1) i) := by
  rw [k1_pay10_apply, score_eq V x wq wk c hQ hK s hs i k, Mseq_pay V c s hs i]

include hQ hK in
theorem scale_eq (s : ℕ) (hs : s < 8) (i : Fin 8192) (z : Fin 1) :
    k1_pay9 (iblk1 V c 0 (pt i s hs)) (iblk1 V c 1 (pt i s hs)) (prevSt V c (pt i s hs)).1 (prevSt V c (pt i s hs)).1 (ix2 (rw_ i) z)
      = Ideal.exp (Mseq V c s i - Mseq V c (s + 1) i) := by
  have hz : z = 0 := Subsingleton.elim _ _
  subst hz
  rw [k1_pay9_apply, (prev_eq V c s hs i).1, Mseq_pay V c s hs i]

include hQ hK in
theorem hL (s : ℕ) (hs : s < 8) (i : Fin 8192) :
    Lseq V c (s + 1) i = Ideal.exp (Mseq V c s i - Mseq V c (s + 1) i) * Lseq V c s i
      + ∑ k : Fin 1024, Ideal.exp (Spec.score x wq wk i ⟨1024 * s + k, LibOnlineSoftmax.blk_lt hs k⟩ - Mseq V c (s + 1) i) := by
  rw [Lseq_pay V c s hs i, k1_pay11_apply, scale_eq V x wq wk c hQ hK s hs i 0, (prev_eq V c s hs i).2.1]
  congr 1
  exact Finset.sum_congr rfl fun k _ => weight_eq V x wq wk c hQ hK s hs i k

include hQ hK hV in
theorem hA (s : ℕ) (hs : s < 8) (i : Fin 8192) (d : Fin 1024) :
    Aseq V c (s + 1) i d = Ideal.exp (Mseq V c s i - Mseq V c (s + 1) i) * Aseq V c s i d
      + ∑ k : Fin 1024, Ideal.exp (Spec.score x wq wk i ⟨1024 * s + k, LibOnlineSoftmax.blk_lt hs k⟩ - Mseq V c (s + 1) i)
          * Spec.proj x wv ⟨1024 * s + k, LibOnlineSoftmax.blk_lt hs k⟩ d := by
  rw [Aseq_pay V c s hs i d, k1_pay12_apply, scale_eq V x wq wk c hQ hK s hs i 0, (prev_eq V c s hs i).2.2 d]
  congr 1
  exact Finset.sum_congr rfl fun k _ => by
    rw [weight_eq V x wq wk c hQ hK s hs i k, value_eq V x wv c hV s hs i k d]

include hQ hK hV in
/-- The result array after the region is softmax(q kᵀ) v. -/
theorem arr3 (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal)) :
    (dat1 V c).arrAt 3 cfg1.N = Spec.attn x wq wk wv := by
  have hflash := Cert.FlashSpec.flash_eq_attn x wq wk wv hx hq hk hv (Mseq V c) (Lseq V c) (Aseq V c)
    (fun i => by unfold Mseq; rw [dif_neg (by omega)]) (fun i => by unfold Lseq; rw [dif_neg (by omega)])
    (fun i d => by unfold Aseq; rw [dif_neg (by omega)])
    (fun s hs i => hM V x wq wk c hQ hK s hs i) (fun s hs i => hL V x wq wk c hQ hK s hs i)
    (fun s hs i d => hA V x wq wk wv c hQ hK hV s hs i d)
  refine arr1_3_of V c _ fun t h7 => ?_
  rw [flushed1_3_eq V c t, out_last V c t h7]
  funext y
  obtain ⟨r, d, rfl⟩ : ∃ (r : Fin 512) (d : Fin 1024), y = ix2 r d := ⟨y 0, y 1, eq_ix2 y⟩
  refine Eq.trans ?_ (read_blk1_3 _ t r d).symm
  rw [k1_pay3_apply, Spec.attn_ix2]
  have ht := t_lt1 t
  -- the global row of (t, r), and the point t as that row's point at the eighth key tile
  let i : Fin 8192 := ⟨512 * (t.val / 8) + r.val, by have := r.isLt; omega⟩
  have hpt : pt i 7 (by norm_num) = t := by
    apply Fin.ext; show 8 * ((512 * (t.val / 8) + r.val) / 512) + 7 = t.val; have := r.isLt; omega
  have hr : rw_ i = r := by
    apply Fin.ext; show (512 * (t.val / 8) + r.val) % 512 = r.val; have := r.isLt; omega
  have hA8 : Aseq V c 8 i d = (outsAt1 V c t.val t.isLt).2.2.2 (ix2 r d) := by
    rw [show (8 : ℕ) = 7 + 1 from rfl, Aseq_succ V c 7 (by norm_num) i d, hr]
    exact congrArg (fun p : St Ideal => p.2.2.2 (ix2 r d)) (outsAt1_congr V c (congrArg Fin.val hpt) _ _)
  have hL8 : Lseq V c 8 i = (outsAt1 V c t.val t.isLt).2.2.1 (ix2 r (0 : Fin 1)) := by
    rw [show (8 : ℕ) = 7 + 1 from rfl, Lseq_succ V c 7 (by norm_num) i, hr]
    exact congrArg (fun p : St Ideal => p.2.2.1 (ix2 r (0 : Fin 1))) (outsAt1_congr V c (congrArg Fin.val hpt) _ _)
  rw [← hA8, ← hL8]
  exact hflash i d

end Bridge

end Cert.KernelIdeal.Value1

end
-- ==== Proof.RefSide.lean ====
/-
  The reference program's result is the specification, index by index.

  The reference computes q = x wq, k = x wk, v = x wv, the scores q kᵀ, the row maxima (a maximum over each row started from
  the least extended real, then once more against the least extended real), the exponentials of the scores less the row
  maxima, the row sums (started from zero), the quotients, and their product with v. Each stage read at an index is the
  corresponding function of Spec.lean: a projection, a score, a row maximum, a row sum, and the final sum. Nothing here
  needs the inputs finite: the maximum from the least element is a supremum in any linear order with a least element,
  max ⊥ y = y and 0 + s = s hold at every extended real, and everything else is unfolding.
-/
import proofs.«171233_j76312978915618_2_alg».proof.Proof.Gen.ReferenceIdeal.Read
import proofs.«171233_j76312978915618_2_alg».proof.Proof.Spec
import proofs.«171233_j76312978915618_2_alg».proof.Proof.LibSupBlocks
import proofs.«171233_j76312978915618_2_alg».proof.Proof.LibRowReduce

noncomputable section

namespace Cert.RefSide

open Cert.ReferenceIdeal Cert.ReferenceIdeal.Gen Cert.ReferenceIdeal.Read Idealize.ShloMosaic Idealize.ShloMosaic.ValueIdx
  Idealize.SL.Sem Idealize.ShloMosaic.StableHlo

/-- The activations' array type. -/
abbrev XTy : Type := (⟨S8192x1024, .f32⟩ : BufTy).Contents (Elt Ideal)
/-- A weight's array type. -/
abbrev WTy : Type := (⟨S1024x1024, .f32⟩ : BufTy).Contents (Elt Ideal)

/-- The word of minus infinity is the least extended real. -/
theorem ofBits_ninf : Ideal.ofBits .f32 0xFF800000#32 = (⊥ : EReal) := by simp [Ideal.ofBits, Ideal.ieee]

/-! ## The three projections -/

theorem v0_at (x0 : XTy) (x1 : WTy) (p : Fin 8192) (d : Fin 1024) :
    val_main_v0 (F := Ideal) x0 x1 (ix2 p d) = Cert.Spec.proj x0 x1 p d := by
  refine (val_main_v0_apply x0 x1 _).trans ?_
  unfold Cert.Spec.proj
  refine Finset.sum_congr rfl fun k _ => ?_
  have el : lidx_main_v0 (ix2 p d) k = ix2 p k :=
    funext fun a => Fin.ext (by match a with | ⟨0, _⟩ => rfl | ⟨1, _⟩ => rfl)
  have er : ridx_main_v0 (ix2 p d) k = ix2 k d :=
    funext fun a => Fin.ext (by match a with | ⟨0, _⟩ => rfl | ⟨1, _⟩ => rfl)
  rw [el, er]

theorem v1_at (x0 : XTy) (x2 : WTy) (p : Fin 8192) (d : Fin 1024) :
    val_main_v1 (F := Ideal) x0 x2 (ix2 p d) = Cert.Spec.proj x0 x2 p d := by
  refine (val_main_v1_apply x0 x2 _).trans ?_
  unfold Cert.Spec.proj
  refine Finset.sum_congr rfl fun k _ => ?_
  have el : lidx_main_v1 (ix2 p d) k = ix2 p k :=
    funext fun a => Fin.ext (by match a with | ⟨0, _⟩ => rfl | ⟨1, _⟩ => rfl)
  have er : ridx_main_v1 (ix2 p d) k = ix2 k d :=
    funext fun a => Fin.ext (by match a with | ⟨0, _⟩ => rfl | ⟨1, _⟩ => rfl)
  rw [el, er]

theorem v2_at (x0 : XTy) (x3 : WTy) (p : Fin 8192) (d : Fin 1024) :
    val_main_v2 (F := Ideal) x0 x3 (ix2 p d) = Cert.Spec.proj x0 x3 p d := by
  refine (val_main_v2_apply x0 x3 _).trans ?_
  unfold Cert.Spec.proj
  refine Finset.sum_congr rfl fun k _ => ?_
  have el : lidx_main_v2 (ix2 p d) k = ix2 p k :=
    funext fun a => Fin.ext (by match a with | ⟨0, _⟩ => rfl | ⟨1, _⟩ => rfl)
  have er : ridx_main_v2 (ix2 p d) k = ix2 k d :=
    funext fun a => Fin.ext (by match a with | ⟨0, _⟩ => rfl | ⟨1, _⟩ => rfl)
  rw [el, er]

/-- The transposed keys: entry (e, j) is key row j at column e. -/
theorem v3_at (x0 : XTy) (x2 : WTy) (e : Fin 1024) (j : Fin 8192) :
    val_main_v3 (F := Ideal) x0 x2 (ix2 e j) = Cert.Spec.proj x0 x2 j e := by
  refine (val_main_v3_apply x0 x2 _).trans ?_
  have ei : idx_main_v3 (ix2 e j) = ix2 j e :=
    funext fun a => Fin.ext (by match a with | ⟨0, _⟩ => rfl | ⟨1, _⟩ => rfl)
  rw [ei, v1_at]

/-! ## The scores -/

theorem v4_at (x0 : XTy) (x1 x2 : WTy) (i j : Fin 8192) :
    val_main_v4 (F := Ideal) x0 x1 x2 (ix2 i j) = Cert.Spec.score x0 x1 x2 i j := by
  refine (val_main_v4_apply x0 x1 x2 _).trans ?_
  unfold Cert.Spec.score
  refine Finset.sum_congr rfl fun k _ => ?_
  have el : lidx_main_v4 (ix2 i j) k = ix2 i k :=
    funext fun a => Fin.ext (by match a with | ⟨0, _⟩ => rfl | ⟨1, _⟩ => rfl)
  have er : ridx_main_v4 (ix2 i j) k = ix2 k j :=
    funext fun a => Fin.ext (by match a with | ⟨0, _⟩ => rfl | ⟨1, _⟩ => rfl)
  rw [el, er, v0_at, v3_at]

/-! ## The row maximum -/

/-- The maximum over row i from the least element is the supremum of the row's scores. -/
theorem v5_at (x0 : XTy) (x1 x2 : WTy) (i : Fin 8192) :
    val_main_v5 (F := Ideal) x0 x1 x2 (ix1 i) = Cert.Spec.rowMax x0 x1 x2 i := by
  unfold val_main_v5
  refine (Cert.LibRowReduce.hostReduce_row (n := 8192) (m := 8192) (FloatOps.maximumf (F := Ideal) (φ := .f32))
    (val_main_v4 (F := Ideal) x0 x1 x2) (val_main_cst (F := Ideal)) reducesTo_S8192x8192_S8192_d1 (by decide) h_S_ i).trans ?_
  rw [val_main_cst_apply, Ideal.ofBits_def, ofBits_ninf]
  unfold Cert.Spec.rowMax
  refine (Cert.LibSupBlocks.fold_max_bot_eq_sup (α := EReal) Finset.univ _).trans ?_
  exact Finset.sup_congr rfl fun j _ => v4_at x0 x1 x2 i j

/-- The second maximum, against the least element again, changes nothing. -/
theorem v7_at (x0 : XTy) (x1 x2 : WTy) (i : Fin 8192) :
    val_main_v7 (F := Ideal) x0 x1 x2 (ix1 i) = Cert.Spec.rowMax x0 x1 x2 i := by
  rw [val_main_v7_apply, val_main_v6_apply, val_main_cst_0_apply, v5_at, Ideal.ofBits_def, ofBits_ninf, Ideal.maximumf_def]
  exact max_bot_left _

/-- The row maximum spread over the row. -/
theorem v9_at (x0 : XTy) (x1 x2 : WTy) (i j : Fin 8192) :
    val_main_v9 (F := Ideal) x0 x1 x2 (ix2 i j) = Cert.Spec.rowMax x0 x1 x2 i := by
  rw [val_main_v9_apply, val_main_v8_apply]
  have ei : idx_main_v8 (idx_main_v9 (ix2 i j)) = ix1 i :=
    funext fun a => Fin.ext (by match a with | ⟨0, _⟩ => rfl)
  rw [ei, v7_at]

/-! ## The exponentials and the row sum -/

theorem v11_at (x0 : XTy) (x1 x2 : WTy) (i j : Fin 8192) :
    val_main_v11 (F := Ideal) x0 x1 x2 (ix2 i j)
      = Ideal.exp (Cert.Spec.score x0 x1 x2 i j - Cert.Spec.rowMax x0 x1 x2 i) := by
  rw [val_main_v11_apply, val_main_v10_apply, v4_at, v9_at, Ideal.hostUnary_exp_def, Ideal.subf_def]

theorem v12_at (x0 : XTy) (x1 x2 : WTy) (i : Fin 8192) :
    val_main_v12 (F := Ideal) x0 x1 x2 (ix1 i) = Cert.Spec.rowSum x0 x1 x2 i := by
  rw [val_main_v12_apply, val_main_cst_1_apply, Ideal.ofBits_def, Ideal.ofBits_zero_f32, zero_add]
  unfold Cert.Spec.rowSum
  refine Finset.sum_congr rfl fun k _ => ?_
  have ei : idx_main_v12 (ix1 i) k = ix2 i k :=
    funext fun a => Fin.ext (by match a with | ⟨0, _⟩ => rfl | ⟨1, _⟩ => rfl)
  rw [ei, v11_at]

/-- The row sum spread over the row. -/
theorem v14_at (x0 : XTy) (x1 x2 : WTy) (i j : Fin 8192) :
    val_main_v14 (F := Ideal) x0 x1 x2 (ix2 i j) = Cert.Spec.rowSum x0 x1 x2 i := by
  rw [val_main_v14_apply, val_main_v13_apply]
  have ei : idx_main_v13 (idx_main_v14 (ix2 i j)) = ix1 i :=
    funext fun a => Fin.ext (by match a with | ⟨0, _⟩ => rfl)
  rw [ei, v12_at]

/-! ## The quotients and the result -/

theorem v15_at (x0 : XTy) (x1 x2 : WTy) (i j : Fin 8192) :
    val_main_v15 (F := Ideal) x0 x1 x2 (ix2 i j)
      = Ideal.div (Ideal.exp (Cert.Spec.score x0 x1 x2 i j - Cert.Spec.rowMax x0 x1 x2 i)) (Cert.Spec.rowSum x0 x1 x2 i) := by
  rw [val_main_v15_apply, v11_at, v14_at, Ideal.hostDivf_def]

theorem v16_at (x0 : XTy) (x1 x2 x3 : WTy) (i : Fin 8192) (d : Fin 1024) :
    val_main_v16 (F := Ideal) x0 x1 x2 x3 (ix2 i d) = Cert.Spec.attnAt x0 x1 x2 x3 i d := by
  refine (val_main_v16_apply x0 x1 x2 x3 _).trans ?_
  unfold Cert.Spec.attnAt
  refine Finset.sum_congr rfl fun k _ => ?_
  have el : lidx_main_v16 (ix2 i d) k = ix2 i k :=
    funext fun a => Fin.ext (by match a with | ⟨0, _⟩ => rfl | ⟨1, _⟩ => rfl)
  have er : ridx_main_v16 (ix2 i d) k = ix2 k d :=
    funext fun a => Fin.ext (by match a with | ⟨0, _⟩ => rfl | ⟨1, _⟩ => rfl)
  rw [el, er, v15_at, v2_at]

/-- The reference's result array is the specification of its four arguments. -/
theorem ref_eq (x0 : (⟨S8192x1024, .f32⟩ : BufTy).Contents (Elt Ideal)) (x1 x2 x3 : (⟨S1024x1024, .f32⟩ : BufTy).Contents (Elt Ideal)) :
    Cert.ReferenceIdeal.Read.val_main_v16 (F := Ideal) x0 x1 x2 x3 = Cert.Spec.attn x0 x1 x2 x3 := by
  funext i
  obtain ⟨p, d, rfl⟩ : ∃ (p : Fin 8192) (d : Fin 1024), i = ix2 p d := ⟨i 0, i 1, eq_ix2 i⟩
  exact (v16_at x0 x1 x2 x3 p d).trans (Cert.Spec.attn_ix2 x0 x1 x2 x3 p d).symm

end Cert.RefSide

end
-- ==== Proof.Finite.lean ====
/-
  From the precondition to "every input entry is a real number".

  The precondition is the conjunction of four tests, one per argument array: every entry x has |x| < +∞. Over the
  extended reals |x| is max x (-x), and max x (-x) < ⊤ excludes both ⊤ (x itself is ⊤) and ⊥ (then -x is ⊤), so x is the
  coercion of a real. A test "all entries" is a reduction by "and" of the array of entrywise comparisons from the
  constant true; it yields true only if every comparison is true.
-/
import proofs.«171233_j76312978915618_2_alg».proof.Pre_finite_inputs
import Idealize.ShloMosaic.Lib.ReduceAll
import Idealize.ShloMosaic.Lib.ValueIdx
import Idealize.ShloMosaic.PureOps.Ideal.Laws

namespace Cert.Finite

open Idealize.ShloMosaic Cert.Pre_finite_inputs

/-- The scalar shape has one index. -/
instance : Subsingleton S_.Idx := ⟨fun _ _ => funext fun d => d.elim0⟩

/-- The word of plus infinity is the greatest extended real. -/
theorem ofBits_pinf : Ideal.ofBits .f32 0x7F800000#32 = (⊤ : EReal) := by simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_pinf] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  obtain ⟨h1, h2⟩ := max_lt_iff.1 hlt
  induction x using EReal.rec with
  | bot => exact absurd h2 (by simp)
  | coe r => exact ⟨r, rfl⟩
  | top => exact absurd h1 (lt_irrefl _)

/-- Under the precondition every entry of each of the four argument arrays is a real number. -/
theorem finite_of_pre [Facts] (x0 : (⟨S8192x1024, .f32⟩ : BufTy).Contents (Elt Ideal))
    (x1 x2 x3 : (⟨S1024x1024, .f32⟩ : BufTy).Contents (Elt Ideal))
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩

end Cert.Finite
-- ==== Proof.Algebraic.lean ====
/-
  The value claim assembled: the kernel's run ends with the result array at softmax(q kᵀ) v of its arguments, the
  reference's run with its result at the same function of its own arguments, and the arguments agree.
-/
import proofs.«171233_j76312978915618_2_alg».proof.Defs
import proofs.«171233_j76312978915618_2_alg».proof.Proof.KI.Frame
import proofs.«171233_j76312978915618_2_alg».proof.Proof.KI.Entry0
import proofs.«171233_j76312978915618_2_alg».proof.Proof.KI.Value1
import proofs.«171233_j76312978915618_2_alg».proof.Proof.RefSide
import proofs.«171233_j76312978915618_2_alg».proof.Proof.Finite
import proofs.«171233_j76312978915618_2_alg».proof.Proof.Gen.KernelIdeal
import proofs.«171233_j76312978915618_2_alg».proof.Proof.Gen.ReferenceIdeal
import proofs.«171233_j76312978915618_2_alg».proof.Proof.Gen.Pre_finite_inputs

noncomputable section

namespace Cert.Algebraic

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the projection region, the three projected arrays are the specification's projections of the arguments. -/
theorem entry_q (c : Dev nD) (p : Fin 8192) (e : Fin 1024) :
    (V2 m ρ c main_v2_0 : S8192x1024.Idx → EReal) (ix2 p e)
      = Spec.proj (m ((c : Thread nD τ).loc main_arg0)) (m ((c : Thread nD τ).loc main_arg1)) p e := by
  show W2 m ρ c (Proc.devRef .tc (Pipeline.arrRef spec0 3)) (ix2 p e) = _
  rw [W2_arr m ρ c 3]
  exact congrFun (Entry0.arr3_entry m c) (ix2 p e)

theorem entry_k (c : Dev nD) (p : Fin 8192) (e : Fin 1024) :
    (V2 m ρ c main_v2_1 : S8192x1024.Idx → EReal) (ix2 p e)
      = Spec.proj (m ((c : Thread nD τ).loc main_arg0)) (m ((c : Thread nD τ).loc main_arg2)) p e := by
  show W2 m ρ c (Proc.devRef .tc (Pipeline.arrRef spec0 4)) (ix2 p e) = _
  rw [W2_arr m ρ c 4]
  exact congrFun (Entry0.arr4_entry m c) (ix2 p e)

theorem entry_v (c : Dev nD) (p : Fin 8192) (e : Fin 1024) :
    (V2 m ρ c main_v2_2 : S8192x1024.Idx → EReal) (ix2 p e)
      = Spec.proj (m ((c : Thread nD τ).loc main_arg0)) (m ((c : Thread nD τ).loc main_arg3)) p e := by
  show W2 m ρ c (Proc.devRef .tc (Pipeline.arrRef spec0 5)) (ix2 p e) = _
  rw [W2_arr m ρ c 5]
  exact congrFun (Entry0.arr5_entry m c) (ix2 p e)

/-- The kernel's result array on finite arguments. -/
theorem result_eq [hP : Cert.Pre_finite_inputs.Facts] (hpre : Cert.Pre_KernelIdeal m) (c : Dev nD) :
    (dat1 (V2 m ρ) c).arrAt 3 cfg1.N
      = Spec.attn (m ((c : Thread nD τ).loc main_arg0)) (m ((c : Thread nD τ).loc main_arg1)) (m ((c : Thread nD τ).loc main_arg2)) (m ((c : Thread nD τ).loc main_arg3)) := by
  obtain ⟨hx, hq, hk, hv⟩ := Cert.Finite.finite_of_pre _ _ _ _ (hpre c)
  exact Value1.arr3 (V2 m ρ) _ _ _ _ c (entry_q m ρ c) (entry_k m ρ c) (entry_v m ρ c) hx hq hk hv

end Cert.Algebraic

end
-- ==== Proof.lean ====
/-
  The certificate of a fused attention kernel against its reference softmax(q kᵀ) v, q = x wq, k = x wk, v = x wv.

  The kernel runs two regions. The first projects x tile by tile: one product with the joined weight [wq|wk], whose
  two halves are the queries and the keys, and one with wv (its operands passed through bf16, which is the identity
  on the extended reals). The second is attention with an online softmax: for each tile of 512 queries it walks 8
  tiles of 1024 keys, carrying per query row a running maximum m, a running denominator l and a running numerator
  acc; a key tile with scores s updates m' = max(m, max s), l' = exp(m − m')·l + Σ exp(s − m'),
  acc' = exp(m − m')·acc + Σ exp(s − m')·v, and the last tile stores acc / l. The reference subtracts the row
  maximum, exponentiates, divides each weight by the row sum and multiplies by v.

  The three frames: both kernel programs by the region-by-region run (each region's body run case by case, the second
  region's invariant carrying the scratch contents between key tiles); the reference by its run. The idealization
  rewrote nothing, so there is nothing to preserve. The value claim: the kernel's result array is read off its run
  (the first region leaves the three projections; the second, by induction over the key tiles, the online
  recursion), the reference's off its run, and the two are one function: on finite inputs every score is a real,
  rescaling by exp(m − m') turns the sums taken against the old maximum into sums against the new one
  (exp(a)·exp(b) = exp(a + b)), so after the last tile acc / l is Σ_j exp(s_j − max) v_j / Σ_j exp(s_j − max), and
  dividing the sum is dividing each term since the denominator is a positive real.
-/
import proofs.«171233_j76312978915618_2_alg».proof.Defs
import proofs.«171233_j76312978915618_2_alg».proof.Proof.Gen.Kernel
import proofs.«171233_j76312978915618_2_alg».proof.Proof.Gen.KernelIdeal
import proofs.«171233_j76312978915618_2_alg».proof.Proof.Gen.ReferenceIdeal
import proofs.«171233_j76312978915618_2_alg».proof.Proof.Gen.ReferenceIdeal.Read
import proofs.«171233_j76312978915618_2_alg».proof.Proof.Gen.Pre_finite_inputs
import proofs.«171233_j76312978915618_2_alg».proof.Proof.KB.Frame
import proofs.«171233_j76312978915618_2_alg».proof.Proof.KI.Frame
import proofs.«171233_j76312978915618_2_alg».proof.Proof.Algebraic
import proofs.«171233_j76312978915618_2_alg».proof.Proof.RefSide
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with their result arrays at softmax(q kᵀ) v of the arguments: the kernel's by its run
    and the online recursion's closed form, the reference's by its run read one operation at a time. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Algebraic.result_eq (hP := Cert.Pre_finite_inputs.Gen.facts) m ρ hpre c), (h c).2⟩)
      (Cert.KernelIdeal.Hand.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v16_eq, Cert.RefSide.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
